-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S8x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel

variable [Facts]

def fn {F : FTy → Type} [FloatOps F] (main_arg0 : FVec F S128x2048 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  main_v3
-- ==== Kernel.lean ====
abbrev S128x2048 : Shape := ⟨2, ![128, 2048]⟩
abbrev S128x2048x255 : Shape := ⟨3, ![128, 2048, 255]⟩
abbrev S8x2048 : Shape := ⟨2, ![8, 2048]⟩
abbrev S8x2048x255 : Shape := ⟨3, ![8, 2048, 255]⟩
abbrev S8x2048x1 : Shape := ⟨3, ![8, 2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x2048, .f32⟩
  | .hbm, ⟨1, _⟩ => ⟨S128x2048x255, .f32⟩
  | .local _ .vmem, ⟨0, _⟩ => ⟨S8x2048, .f32⟩
  | .local _ .vmem, ⟨1, _⟩ => ⟨S8x2048, .f32⟩
  | .local _ .vmem, ⟨2, _⟩ => ⟨S8x2048x255, .f32⟩
  | .local _ .vmem, ⟨3, _⟩ => ⟨S8x2048x255, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048x255 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x2048_S8x2048_0_0 : ∀ a, (![0, 0] : Fin 2 → Nat) a + S8x2048.size a ≤ S8x2048.size a
  h_S8x2048 : 0 < S8x2048.numel
  iota_S8x2048x255_d2_w32 : S8x2048x255.Iotas .tc 32 [2]
  shapeCasts_S8x2048_S8x2048x1 : S8x2048.ShapeCasts S8x2048x1
  broadcasts_S8x2048x1_S8x2048x255 : S8x2048x1.Broadcasts S8x2048x255
  inb_S8x2048x255_S8x2048x255_0_0_0 : ∀ a, (![0, 0, 0] : Fin 3 → Nat) a + S8x2048x255.size a ≤ S8x2048x255.size a
  h_S8x2048x255 : 0 < S8x2048x255.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S128x2048.size a
  hwx0_0 : ∀ i : grid0.Coords, EltTy.bits .f32 = 32 ∨ (Rect.block (s := S128x2048) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x255.size a ≤ S128x2048x255.size a
  hwx0_1 : ∀ i : grid0.Coords, EltTy.bits .f32 = 32 ∨ (Rect.block (s := S128x2048x255) S8x2048x255.size (cc0_transform_1 i) (hinb0_1 i)).WholeWords (EltTy.packing .f32)

variable [Facts₀]

abbrev win0_0 : Pipeline.Window sig grid0 :=
  Pipeline.Window.ofSpec (Memref.whole main_arg0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x2048x255.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048 : Shape := ⟨2, ![128, 2048]⟩
abbrev S_ : Shape := ⟨0, ![]⟩
abbrev S262144 : Shape := ⟨1, ![262144]⟩
abbrev S262144x255 : Shape := ⟨2, ![262144, 255]⟩
abbrev S262144x1 : Shape := ⟨2, ![262144, 1]⟩
abbrev S262144x2 : Shape := ⟨2, ![262144, 2]⟩
abbrev S128x2048x255 : Shape := ⟨3, ![128, 2048, 255]⟩

abbrev nBuf : Space → Nat
  | .hbm => 92
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x2048, .f32⟩
  | .hbm, ⟨9, _⟩ => ⟨S128x2048, .f32⟩
  | .hbm, ⟨10, _⟩ => ⟨S_, .f32⟩
  | .hbm, ⟨11, _⟩ => ⟨S128x2048, .f32⟩
  | .hbm, ⟨12, _⟩ => ⟨S128x2048, .f32⟩
  | .hbm, ⟨13, _⟩ => ⟨S_, .f32⟩
  | .hbm, ⟨14, _⟩ => ⟨S128x2048, .f32⟩
  | .hbm, ⟨15, _⟩ => ⟨S128x2048, .f32⟩
  | .hbm, ⟨16, _⟩ => ⟨S_, .f32⟩
  | .hbm, ⟨17, _⟩ => ⟨S128x2048, .f32⟩
  | .hbm, ⟨18, _⟩ => ⟨S128x2048, .f32⟩
  | .hbm, ⟨19, _⟩ => ⟨S_, .f32⟩
  | .hbm, ⟨20, _⟩ => ⟨S128x2048, .f32⟩
  | .hbm, ⟨21, _⟩ => ⟨S128x2048, .f32⟩
  | .hbm, ⟨22, _⟩ => ⟨S128x2048, .f32⟩
  | .hbm, ⟨23, _⟩ => ⟨S128x2048, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x2048, .i32⟩
  | .hbm, ⟨28, _⟩ => ⟨S128x2048, .i32⟩
  | .hbm, ⟨29, _⟩ => ⟨S_, .i32⟩
  | .hbm, ⟨30, _⟩ => ⟨S128x2048, .i32⟩
  | .hbm, ⟨31, _⟩ => ⟨S128x2048, .i32⟩
  | .hbm, ⟨32, _⟩ => ⟨S_, .i32⟩
  | .hbm, ⟨33, _⟩ => ⟨S128x2048, .i32⟩
  | .hbm, ⟨34, _⟩ => ⟨S128x2048, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S128x2048, .i32⟩
  | .hbm, ⟨39, _⟩ => ⟨S128x2048, .i32⟩
  | .hbm, ⟨40, _⟩ => ⟨S_, .i32⟩
  | .hbm, ⟨41, _⟩ => ⟨S128x2048, .i32⟩
  | .hbm, ⟨42, _⟩ => ⟨S128x2048, .i32⟩
  | .hbm, ⟨43, _⟩ => ⟨S128x2048, .f32⟩
  | .hbm, ⟨44, _⟩ => ⟨S128x2048, .f32⟩
  | .hbm, ⟨45, _⟩ => ⟨S_, .f32⟩
  | .hbm, ⟨46, _⟩ => ⟨S128x2048, .f32⟩
  | .hbm, ⟨47, _⟩ => ⟨S128x2048, .f32⟩
  | .hbm, ⟨48, _⟩ => ⟨S262144, .i32⟩
  | .hbm, ⟨49, _⟩ => ⟨S_, .f32⟩
  | .hbm, ⟨50, _⟩ => ⟨S262144x255, .f32⟩
  | .hbm, ⟨51, _⟩ => ⟨S262144, .i32⟩
  | .hbm, ⟨52, _⟩ => ⟨S262144, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S_, .i32⟩
  | .hbm, ⟨61, _⟩ => ⟨S262144, .i32⟩
  | .hbm, ⟨62, _⟩ => ⟨S262144, .i1⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S262144, .i32⟩
  | .hbm, ⟨67, _⟩ => ⟨S262144x1, .i32⟩
  | .hbm, ⟨68, _⟩ => ⟨S262144x1, .i32⟩
  | .hbm, ⟨69, _⟩ => ⟨S262144x2, .i32⟩
  | .hbm, ⟨70, _⟩ => ⟨S262144x255, .f32⟩
  | .hbm, ⟨71, _⟩ => ⟨S262144, .i32⟩
  | .hbm, ⟨72, _⟩ => ⟨S262144, .f32⟩
  | .hbm, ⟨73, _⟩ => ⟨S_, .i32⟩
  | .hbm, ⟨74, _⟩ => ⟨S262144, .i32⟩
  | .hbm, ⟨75, _⟩ => ⟨S262144, .i1⟩
  | .hbm, ⟨76, _⟩ => ⟨S_, .i32⟩
  | .hbm, ⟨77, _⟩ => ⟨S262144, .i32⟩
  | .hbm, ⟨78, _⟩ => ⟨S262144, .i32⟩
  | .hbm, ⟨79, _⟩ => ⟨S262144, .i32⟩
  | .hbm, ⟨80, _⟩ => ⟨S_, .i32⟩
  | .hbm, ⟨81, _⟩ => ⟨S262144, .i32⟩
  | .hbm, ⟨82, _⟩ => ⟨S262144, .i1⟩
  | .hbm, ⟨83, _⟩ => ⟨S_, .i32⟩
  | .hbm, ⟨84, _⟩ => ⟨S262144, .i32⟩
  | .hbm, ⟨85, _⟩ => ⟨S262144, .i32⟩
  | .hbm, ⟨86, _⟩ => ⟨S262144, .i32⟩
  | .hbm, ⟨87, _⟩ => ⟨S262144x1, .i32⟩
  | .hbm, ⟨88, _⟩ => ⟨S262144x1, .i32⟩
  | .hbm, ⟨89, _⟩ => ⟨S262144x2, .i32⟩
  | .hbm, ⟨90, _⟩ => ⟨S262144x255, .f32⟩
  | .hbm, ⟨91, _⟩ => ⟨S128x2048x255, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_c_6 : Ref sig .tc := ⟨.hbm, 35, rfl⟩
abbrev main_c_7 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_8 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_10 : Ref sig .tc := ⟨.hbm, 53, rfl⟩
abbrev main_v25 : Ref sig .tc := ⟨.hbm, 54, rfl⟩
abbrev main_v26 : Ref sig .tc := ⟨.hbm, 55, rfl⟩
abbrev main_c_11 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_12 : Ref sig .tc := ⟨.hbm, 60, rfl⟩
abbrev main_v30 : Ref sig .tc := ⟨.hbm, 61, rfl⟩
abbrev main_v31 : Ref sig .tc := ⟨.hbm, 62, rfl⟩
abbrev main_c_13 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_14 : Ref sig .tc := ⟨.hbm, 73, rfl⟩
abbrev main_v41 : Ref sig .tc := ⟨.hbm, 74, rfl⟩
abbrev main_v42 : Ref sig .tc := ⟨.hbm, 75, rfl⟩
abbrev main_c_15 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_16 : Ref sig .tc := ⟨.hbm, 80, rfl⟩
abbrev main_v46 : Ref sig .tc := ⟨.hbm, 81, rfl⟩
abbrev main_v47 : Ref sig .tc := ⟨.hbm, 82, rfl⟩
abbrev main_c_17 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S_S128x2048 : S_.BroadcastsInDim S128x2048 (![] : Fin 0 → Fin S128x2048.rank)
  bcast_S_S262144x255 : S_.BroadcastsInDim S262144x255 (![] : Fin 0 → Fin S262144x255.rank)
  shapeCasts_S128x2048_S262144 : S128x2048.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  shapeCasts_S262144x255_S128x2048x255 : S262144x255.ShapeCasts S128x2048x255
  scatter_S262144x255_S262144x2_S262144_n_01_01_1_wf : ScatterDims.WF S262144x255 S262144x2 S262144 [] [0, 1] [0, 1] 1

variable [Facts₀]

def scatter_S262144x255_S262144x2_S262144_n_01_01_1 : ScatterDims S262144x255 S262144x2 S262144 where
  updateWindowDims := []
  insertedWindowDims := [0, 1]
  scatterDimsToOperandDims := [0, 1]
  indexVectorDim := 1
  wf := scatter_S262144x255_S262144x2_S262144_n_01_01_1_wf

class Facts : Prop extends Facts₀ where

variable [Facts]
-- ==== Proof.FiniteInputs.lean ====
/-
  The precondition, read back: every entry of the argument is a real number.

  The precondition is `all (|x| < +inf)`, an `and`-reduction over all entries from `true`.  If it is `true` then each
  comparison is, and on the extended reals `|x| < ⊤` fails at both infinities.
-/
import proofs.«158388_g52020643889842_cont_9to1c4b_370_9_alg».proof.Pre_finite_inputs
import proofs.«158388_g52020643889842_cont_9to1c4b_370_9_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Hand

open Idealize.ShloMosaic Cert.Pre_finite_inputs

/-- The binary32 pattern of `+inf` denotes `⊤`. -/
theorem w_inf : Ideal.ofBits .f32 0x7F800000#32 = ⊤ := by
  simp [Ideal.ofBits, Ideal.ieee]

instance : Subsingleton S_.Idx := ⟨fun a b => funext fun d => d.elim0⟩

/-- Under the precondition every entry of the argument is a real. -/
theorem real_of_pre (x : FVec Ideal S128x2048 .f32) (h : fn (F := Ideal) x = fun _ => 1#1) (y : S128x2048.Idx) :
    ∃ r : ℝ, x y = (r : EReal) := by
  have e := congrFun h ValueIdx.ix0
  dsimp only [fn] at e
  have hy := Host.reduce_andi_all _ _ _ _ _ e y
  have hc : Ideal.cmp .olt (max (x y) (-(x y))) (Ideal.ofBits .f32 0x7F800000#32) = 1#1 := hy
  rw [w_inf] at hc
  generalize x y = z at hc ⊢
  induction z using EReal.rec with
  | bot => exact absurd hc (by simp [Ideal.cmp])
  | top => exact absurd hc (by simp [Ideal.cmp])
  | coe r => exact ⟨r, rfl⟩

end Cert.Pre_finite_inputs.Hand

end
-- ==== Proof.TwoHotWords.lean ====
/-
  The float constants of the two programs, as the extended reals their binary32 patterns denote:
  0, 1, -1, 20, -20, 40 and 254.  Each is a small integer, so the pattern's value is exact.
-/
import Idealize.ShloMosaic.PureOps.Ideal

noncomputable section

namespace TwoHot.Words

open Idealize.ShloMosaic

theorem w_zero : Ideal.ofBits .f32 0x00000000#32 = ((0 : ℝ) : EReal) := by
  simp [Ideal.ofBits, Ideal.ieee]

theorem w_one : Ideal.ofBits .f32 0x3F800000#32 = ((1 : ℝ) : EReal) := by
  simp [Ideal.ofBits, Ideal.ieee, -EReal.coe_mul]; norm_num

theorem w_neg_one : Ideal.ofBits .f32 0xBF800000#32 = ((-1 : ℝ) : EReal) := by
  simp [Ideal.ofBits, Ideal.ieee, -EReal.coe_mul]; norm_num

theorem w_twenty : Ideal.ofBits .f32 0x41A00000#32 = ((20 : ℝ) : EReal) := by
  simp [Ideal.ofBits, Ideal.ieee, -EReal.coe_mul]; norm_num

theorem w_neg_twenty : Ideal.ofBits .f32 0xC1A00000#32 = ((-20 : ℝ) : EReal) := by
  simp [Ideal.ofBits, Ideal.ieee, -EReal.coe_mul]; norm_num

theorem w_forty : Ideal.ofBits .f32 0x42200000#32 = ((40 : ℝ) : EReal) := by
  simp [Ideal.ofBits, Ideal.ieee, -EReal.coe_mul]; norm_num

theorem w_254 : Ideal.ofBits .f32 0x437E0000#32 = ((254 : ℝ) : EReal) := by
  simp [Ideal.ofBits, Ideal.ieee, -EReal.coe_mul]; norm_num

end TwoHot.Words

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.TwoHotScalar.lean ====
/-
  One input value `x` and the quantities both programs compute from it, over the extended reals and — for a real
  `x` — over the reals.

  * `symv r = clamp (sign r · log (1 + |r|)) to [-20, 20]`, the clamped symmetric logarithm;
  * `pos r = (symv r + 20) / 40 · 254`, the position on the grid of 255 bins, a real in `[0, 254]`;
  * the reference's spelling `posHost` (its own `sign`) and the kernel's `posKer` (a sign assembled from two
    comparisons: `x` itself where `|x| > 0` fails, else `-1` below zero and `1` above) both give `pos r` at a real;
  * the kernel's hat `max (1 - |p - i|) 0` at a bin number `i`;
  * the reference's integer bins: the floor of the position converted to a 32-bit word and clipped to `[0, 254]`
    is the word of `⌊pos r⌋`, and the next bin clipped likewise is the word of `min (⌊pos r⌋ + 1) 254`.
-/
import Idealize.ShloMosaic.PureOps.Ideal
import proofs.«158388_g52020643889842_cont_9to1c4b_370_9_alg».proof.Proof.TwoHotWords
import proofs.«158388_g52020643889842_cont_9to1c4b_370_9_alg».proof.Proof.LibSmallWords

noncomputable section

namespace TwoHot

open Idealize.ShloMosaic TwoHot.Words

/-! ## The position, over the reals -/

/-- The clamped symmetric logarithm. -/
def symv (r : ℝ) : ℝ := min 20 (max (-20) ((SignType.sign r : ℝ) * Real.log (1 + |r|)))

/-- The position of `r` on the grid of bins. -/
def pos (r : ℝ) : ℝ := (symv r - (-20)) * (1 / 40) * 254

theorem symv_ge (r : ℝ) : -20 ≤ symv r := le_min (by norm_num) (le_max_left _ _)
theorem symv_le (r : ℝ) : symv r ≤ 20 := min_le_left _ _

theorem pos_nonneg (r : ℝ) : 0 ≤ pos r := by
  have h := symv_ge r
  have e : pos r = (symv r + 20) * (254 / 40) := by unfold pos; ring
  rw [e]
  exact mul_nonneg (by linarith) (by norm_num)

theorem pos_le (r : ℝ) : pos r ≤ 254 := by
  have h := symv_le r
  have e : pos r = (symv r + 20) * (254 / 40) := by unfold pos; ring
  rw [e]
  nlinarith

/-! ## The position, as each program spells it on the extended reals -/

/-- The inclusion of the reals in the extended reals keeps maxima and minima. -/
theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- `|x|` as both programs compute it at this instance. -/
theorem abs_coe (r : ℝ) : max (r : EReal) (-(r : EReal)) = ((|r| : ℝ) : EReal) := by
  rw [← EReal.coe_neg, ← coe_max, abs_eq_max_neg]

/-- `log (1 + |x|)` at a real. -/
theorem log1p_abs_coe (r : ℝ) : Ideal.log1p (max (r : EReal) (-(r : EReal))) = ((Real.log (1 + |r|) : ℝ) : EReal) := by
  rw [abs_coe, Ideal.log1p, ← EReal.coe_one, ← EReal.coe_add, Ideal.log_coe, if_neg (by have := abs_nonneg r; linarith)]

/-- From the product `sign · log1p` to the position: clamp to `[-20, 20]`, shift by `20`, divide by `40`, scale by `254`. -/
def scale (y : EReal) : EReal :=
  Ideal.div (min (Ideal.ofBits .f32 0x41A00000#32) (max (Ideal.ofBits .f32 0xC1A00000#32) y) - Ideal.ofBits .f32 0xC1A00000#32)
    (Ideal.ofBits .f32 0x42200000#32) * Ideal.ofBits .f32 0x437E0000#32

theorem scale_coe (y : ℝ) : scale (y : EReal) = (((min 20 (max (-20) y) - (-20)) * (1 / 40) * 254 : ℝ) : EReal) := by
  unfold scale
  rw [w_twenty, w_neg_twenty, w_forty, w_254, ← coe_max, ← coe_min, ← EReal.coe_sub,
    Ideal.div_coe (by norm_num : (40 : ℝ) ≠ 0), ← EReal.coe_mul, ← EReal.coe_mul]

/-- The reference's position: its own `sign`. -/
def posHost (x : EReal) : EReal := scale (Ideal.sign x * Ideal.log1p (max x (-x)))

theorem posHost_coe (r : ℝ) : posHost (r : EReal) = ((pos r : ℝ) : EReal) := by
  unfold posHost
  rw [log1p_abs_coe, Ideal.sign_coe, ← EReal.coe_mul, scale_coe]
  rfl

/-- The kernel's sign: `x` itself unless `|x| > 0`, then `-1` below zero and `1` otherwise. -/
def signKer (x : EReal) : EReal :=
  Scalar.select (Ideal.cmp .ogt (max x (-x)) (Ideal.ofBits .f32 0x00000000#32))
    (Scalar.select (Ideal.cmp .olt x (Ideal.ofBits .f32 0x00000000#32)) (Ideal.ofBits .f32 0xBF800000#32) (Ideal.ofBits .f32 0x3F800000#32)) x

theorem signKer_coe (r : ℝ) : signKer (r : EReal) = ((SignType.sign r : ℝ) : EReal) := by
  unfold signKer
  rw [abs_coe, w_zero, w_one, w_neg_one]
  unfold Ideal.cmp Scalar.select
  rcases lt_trichotomy r 0 with h | h | h
  · have h1 : (0 : ℝ) < |r| := abs_pos.2 (ne_of_lt h)
    simp [h, h1, sign_neg h]
  · subst h
    simp
  · have h1 : (0 : ℝ) < |r| := abs_pos.2 (ne_of_gt h)
    simp [h, h1, sign_pos h, not_lt.2 (le_of_lt h)]

/-- The kernel's position. -/
def posKer (x : EReal) : EReal := scale (signKer x * Ideal.log1p (max x (-x)))

theorem posKer_coe (r : ℝ) : posKer (r : EReal) = ((pos r : ℝ) : EReal) := by
  unfold posKer
  rw [log1p_abs_coe, signKer_coe, ← EReal.coe_mul, scale_coe]
  rfl

/-! ## The kernel's hat -/

/-- `max (1 - |p - i|) 0` as the kernel spells it, `i` a bin number converted to a float. -/
def hatKer (p : EReal) (i : BitVec 32) : EReal :=
  max (Ideal.ofBits .f32 0x3F800000#32 - max (p - ((i.toInt : ℝ) : EReal)) (-(p - ((i.toInt : ℝ) : EReal))))
    (Ideal.ofBits .f32 0x00000000#32)

theorem hatKer_coe (P : ℝ) (i : BitVec 32) :
    hatKer (P : EReal) i = ((max (1 - |P - (i.toInt : ℝ)|) 0 : ℝ) : EReal) := by
  unfold hatKer
  rw [w_one, w_zero, ← EReal.coe_sub, abs_coe, ← EReal.coe_sub, ← coe_max]

/-! ## The reference's bins, as 32-bit words -/

/-- Clip a word to `[0, 254]` (signed). -/
def clip (v : BitVec 32) : BitVec 32 := IntOp.minsi 254#32 (IntOp.maxsi 0#32 v)

/-- A negative index counted from the end of an axis of extent `k`; a non-negative one kept. -/
def wrap (k v : BitVec 32) : BitVec 32 := Scalar.select (IntOp.cmpi .slt v 0#32) (IntOp.addi v k) v

theorem clip_small : ∀ n : Fin 255, clip (BitVec.ofNat 32 n.val) = BitVec.ofNat 32 n.val := by decide
theorem clip_succ : ∀ n : Fin 255, clip (IntOp.addi (BitVec.ofNat 32 n.val) 1#32) = BitVec.ofNat 32 (min (n.val + 1) 254) := by
  decide
theorem wrap_small : ∀ n : Fin 255, wrap 255#32 (BitVec.ofNat 32 n.val) = BitVec.ofNat 32 n.val := by decide
theorem toInt_small : ∀ n : Fin 255, (BitVec.ofNat 32 n.val).toInt = (n.val : Int) := by decide

/-- A row number below `2^31` is non-negative as a signed word: it is kept, and reads back as itself. -/
theorem wrap_row (k : BitVec 32) (n : ℕ) (h : n < 2147483648) : wrap k (BitVec.ofNat 32 n) = BitVec.ofNat 32 n := by
  unfold wrap IntOp.cmpi
  have : (BitVec.ofNat 32 n).slt 0#32 = false := by
    have := Cert.LibSmallWords.slt_ofNat n 0 h (by norm_num)
    simpa using this
  simp [this, Scalar.select]

theorem toInt_row (n : ℕ) (h : n < 2147483648) : (BitVec.ofNat 32 n).toInt = (n : Int) := by
  rw [BitVec.toInt_eq_toNat_of_lt (by rw [BitVec.toNat_ofNat]; omega), BitVec.toNat_ofNat]; omega

/-- The lower bin as the reference computes it. -/
def lowW (x : EReal) : BitVec 32 := clip (Ideal.fptosi 32 (Ideal.liftRound Int.floor (posHost x)))

/-- The upper bin as the reference computes it. -/
def upW (x : EReal) : BitVec 32 := clip (IntOp.addi (lowW x) 1#32)

/-- The floor of the position, as a natural number below 255. -/
def binOf (r : ℝ) : Fin 255 := ⟨⌊pos r⌋.toNat, by
  have h1 : ⌊pos r⌋ ≤ 254 := by
    have : ((⌊pos r⌋ : ℤ) : ℝ) ≤ ((254 : ℤ) : ℝ) := by
      have := Int.floor_le (pos r); have := pos_le r; push_cast; linarith
    exact_mod_cast this
  omega⟩

theorem binOf_val (r : ℝ) : ((binOf r).val : Int) = ⌊pos r⌋ := by
  show ((⌊pos r⌋.toNat : ℕ) : Int) = ⌊pos r⌋
  exact Int.toNat_of_nonneg (Int.floor_nonneg.2 (pos_nonneg r))

theorem lowW_coe (r : ℝ) : lowW (r : EReal) = BitVec.ofNat 32 (binOf r).val := by
  unfold lowW
  rw [posHost_coe, Ideal.liftRound_coe]
  have hf : Ideal.fptosi 32 (((⌊pos r⌋ : ℤ) : ℝ) : EReal) = BitVec.ofNat 32 (binOf r).val := by
    unfold Ideal.fptosi
    rw [Ideal.toIntClamped_coe]
    have h0 : (0 : ℝ) ≤ ((⌊pos r⌋ : ℤ) : ℝ) := by exact_mod_cast Int.floor_nonneg.2 (pos_nonneg r)
    rw [if_pos h0, Int.floor_intCast, ← binOf_val r]
    have hb := (binOf r).isLt
    have : max (-((2 ^ (32 - 1) : ℕ) : Int)) (min (((2 ^ (32 - 1) : ℕ) : Int) - 1) ((binOf r).val : Int)) = ((binOf r).val : Int) := by
      norm_num
      omega
    rw [this, BitVec.ofInt_natCast]
  rw [hf, clip_small]

theorem upW_coe (r : ℝ) : upW (r : EReal) = BitVec.ofNat 32 (min ((binOf r).val + 1) 254) := by
  unfold upW
  rw [lowW_coe, clip_succ]

end TwoHot

end
-- ==== Proof.KernelValue.lean ====
/-
  What the kernel leaves in its result array, over the extended reals.

  The grid has 16 points; point `t` reads rows `8t … 8t+7` of the argument `[128, 2048]` and writes rows
  `8t … 8t+7` of the result `[128, 2048, 255]`.  The body's stored value at `(b, q, k)` of the block is the hat
  `max (1 - |pos - k|) 0` of the position of the loaded entry `(b, q)`: the position is computed entrywise on the
  `[8, 2048]` block, laid along a new last axis of extent 255 (a cast to `[8, 2048, 1]`, then a broadcast), and
  compared with the bin number, which is the coordinate on that axis (an iota).  So the whole array ends as
  `result a (r, q, k) = hat (pos (a (r, q))) k`, the 16 row blocks tiling it.
-/
import proofs.«158388_g52020643889842_cont_9to1c4b_370_9_alg».proof.Proof.Gen.KernelIdeal.Value
import proofs.«158388_g52020643889842_cont_9to1c4b_370_9_alg».proof.Proof.TwoHotScalar
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value TwoHot

/-! ## The body's stored value at an index -/

/-- The position of every entry of a block, as the body computes it. -/
def posVec (v0 : Vec Ideal S8x2048 .f32) : FVec Ideal S8x2048 .f32 := fun y => posKer (v0 y)

/-- The hat of a block of positions against the bin numbers along a new last axis. -/
def hatVec (p : FVec Ideal S8x2048 .f32) : FVec Ideal S8x2048x255 .f32 :=
  maximumf (subf (broadcast S8x2048x255 (Scalar.ofBits (F := Ideal) .f32 0x3F800000#32))
    (absf (subf (broadcastTo S8x2048x255 (shapeCast S8x2048x1 p shapeCasts_S8x2048_S8x2048x1) broadcasts_S8x2048x1_S8x2048x255)
      (sitofp .f32 (iota .tc S8x2048x255 32 [2] iota_S8x2048x255_d2_w32)))))
    (broadcast S8x2048x255 (Scalar.ofBits (F := Ideal) .f32 0x00000000#32))

/-- The body's stored value is the hat of the positions of the loaded block. -/
theorem pay_eq (v0 : Vec Ideal S8x2048 .f32) : k0_pay1 (F := Ideal) v0 = hatVec (posVec v0) := rfl

/-- A block of values laid along a new last axis reads, at `(b, q, k)`, the value at `(b, q)`. -/
theorem column_apply (p : FVec Ideal S8x2048 .f32) (b : Fin 8) (q : Fin 2048) (k : Fin 255) :
    broadcastTo S8x2048x255 (shapeCast S8x2048x1 p shapeCasts_S8x2048_S8x2048x1) broadcasts_S8x2048x1_S8x2048x255 (ix3 b q k)
      = p (ix2 b q) := by
  refine (broadcastTo_apply _ broadcasts_S8x2048x1_S8x2048x255 (ix3 b q k) (ix3 b q (0 : Fin 1)) (fun a => ?_)).trans ?_
  · match a with
    | ⟨0, _⟩ => rfl
    | ⟨1, _⟩ => rfl
    | ⟨2, _⟩ => rfl
  · refine shapeCast_apply p shapeCasts_S8x2048_S8x2048x1 (ix3 b q (0 : Fin 1)) (ix2 b q) ?_
    rw [Shape.rowMajor_val_two, Shape.rowMajor_val_three]
    show b.val * 2048 + q.val = (b.val * 2048 + q.val) * 1 + 0
    omega

/-- The bin number at `(b, q, k)` is `k`. -/
theorem bin_apply (b : Fin 8) (q : Fin 2048) (k : Fin 255) :
    iota .tc S8x2048x255 32 [2] iota_S8x2048x255_d2_w32 (ix3 b q k) = BitVec.ofNat 32 k.val :=
  iota_single_apply .tc S8x2048x255 32 2 iota_S8x2048x255_d2_w32 (ix3 b q k)

theorem hatVec_apply (p : FVec Ideal S8x2048 .f32) (b : Fin 8) (q : Fin 2048) (k : Fin 255) :
    hatVec p (ix3 b q k) = hatKer (p (ix2 b q)) (BitVec.ofNat 32 k.val) := by
  unfold hatVec
  show max (Ideal.ofBits .f32 0x3F800000#32
      - max (broadcastTo S8x2048x255 (shapeCast S8x2048x1 p shapeCasts_S8x2048_S8x2048x1) broadcasts_S8x2048x1_S8x2048x255 (ix3 b q k)
          - (((iota .tc S8x2048x255 32 [2] iota_S8x2048x255_d2_w32 (ix3 b q k)).toInt : ℝ) : EReal))
        (-(broadcastTo S8x2048x255 (shapeCast S8x2048x1 p shapeCasts_S8x2048_S8x2048x1) broadcasts_S8x2048x1_S8x2048x255 (ix3 b q k)
          - (((iota .tc S8x2048x255 32 [2] iota_S8x2048x255_d2_w32 (ix3 b q k)).toInt : ℝ) : EReal))))
      (Ideal.ofBits .f32 0x00000000#32) = _
  rw [column_apply, bin_apply]
  rfl

/-- The body's stored value at `(b, q, k)`. -/
theorem pay_apply (v0 : Vec Ideal S8x2048 .f32) (b : Fin 8) (q : Fin 2048) (k : Fin 255) :
    k0_pay1 (F := Ideal) v0 (ix3 b q k) = hatKer (posKer (v0 (ix2 b q))) (BitVec.ofNat 32 k.val) := by
  rw [pay_eq, hatVec_apply]
  rfl

/-! ## From the blocks to the array -/

variable (m : (ℓ : Loc nD τ sig) → Buf (Elt Ideal) ℓ) (ρ : Dev nD → PrngReg)

/-- The result array as one function of the argument array. -/
def result (a : S128x2048.Idx → EReal) : S128x2048x255.Idx → EReal :=
  fun i => hatKer (posKer (a (ix2 (i 0) (i 1)))) (BitVec.ofNat 32 (i 2).val)

theorem zero2 : (![0, 0] : Fin 2 → Nat) = fun _ => 0 := funext fun a => by fin_cases a <;> rfl
theorem zero3 : (![0, 0, 0] : Fin 3 → Nat) = fun _ => 0 := funext fun a => by fin_cases a <;> rfl

/-- The two windows move together: at point `t` both are at row block `t`, and at block `0` on the other axes. -/
theorem blocks_at : ∀ t : Fin cfg0.N, win0_0.index t (0 : Fin 2) = win0_1.index t (0 : Fin 3)
    ∧ win0_0.index t (1 : Fin 2) = 0 ∧ win0_1.index t (1 : Fin 3) = 0 ∧ win0_1.index t (2 : Fin 3) = 0
    ∧ win0_1.index t (0 : Fin 3) ≤ 15 :=
  (by decide +kernel : ∀ t : Fin grid0.N, _)

/-- Every row block is some point's. -/
theorem block_of_row : ∀ r : Fin 16, ∃ t : Fin cfg0.N, win0_1.index t = ![r.val, 0, 0] :=
  (by decide +kernel : ∀ r : Fin 16, ∃ t : Fin grid0.N, win0_1.index t = ![r.val, 0, 0])

/-- What point `t` writes back is block `t` of `result` of the argument. -/
theorem flushed_eq (c : Dev nD) (t : Fin cfg0.N) :
    (dats m 0 c).flushed 1 t = ((cfg0.win 1).blk t).view.read (Elt Ideal) (result (V m c main_arg0)) := by
  rw [flushed1]
  unfold out0_1
  rw [View.canon_unit_zero zero3]
  simp only [View.ld_unit_zero (S := S8x2048) zero2]
  obtain ⟨e0, e1, e2, e3, e4⟩ := blocks_at t
  funext j
  obtain ⟨b, q, k, rfl⟩ : ∃ (b : Fin 8) (q : Fin 2048) (k : Fin 255), j = ix3 b q k := ⟨j 0, j 1, j 2, eq_ix3 j⟩
  show k0_pay1 (F := Ideal) (iblk m c 0 t) (ix3 b q k) = result (V m c main_arg0) (((cfg0.win 1).blk t).view.emb (ix3 b q k))
  refine (pay_apply (iblk m c 0 t) b q k).trans ?_
  unfold result
  have hx : iblk m c 0 t (ix2 b q)
      = V m c main_arg0 (ix2 ((((cfg0.win 1).blk t).view.emb (ix3 b q k)) 0) ((((cfg0.win 1).blk t).view.emb (ix3 b q k)) 1)) := by
    show V m c main_arg0 (((cfg0.win 0).blk t).view.emb (ix2 b q)) = _
    congr 1
    funext a
    apply Fin.ext
    match a with
    | ⟨0, _⟩ => show win0_0.index t (0 : Fin 2) * 8 + 1 * b.val = win0_1.index t (0 : Fin 3) * 8 + 1 * b.val; omega
    | ⟨1, _⟩ => show win0_0.index t (1 : Fin 2) * 2048 + 1 * q.val = win0_1.index t (1 : Fin 3) * 2048 + 1 * q.val; omega
  have hk : k.val = ((((cfg0.win 1).blk t).view.emb (ix3 b q k)) 2).val := by
    show k.val = win0_1.index t (2 : Fin 3) * 255 + 1 * k.val
    omega
  rw [hx, ← hk]

/-- An index of the array is in point `t`'s block iff each coordinate is in the block's range on its axis. -/
theorem mem_block (t : Fin cfg0.N) (i : S128x2048x255.Idx) :
    i ∈ ((cfg0.win 1).blk t).view.set ↔ ∀ a : Fin 3, win0_1.index t a * S8x2048x255.size a ≤ (i a).val ∧ (i a).val < win0_1.index t a * S8x2048x255.size a + S8x2048x255.size a := by
  show i ∈ ((View.whole main_v0).slice (win0_1.rect t)).set ↔ _
  rw [View.set_slice_whole, Rect.mem_set_unit]
  exact Iff.rfl

/-- The 16 row blocks tile the array. -/
theorem covered (i : S128x2048x255.Idx) :
    ∃ t : Fin cfg0.N, (cfg0.win 1).flush t = true ∧ i ∈ ((cfg0.win 1).blk t).view.set := by
  have hi0 : (i 0).val < 128 := (i 0).isLt
  have hi1 : (i 1).val < 2048 := (i 1).isLt
  have hi2 : (i 2).val < 255 := (i 2).isLt
  obtain ⟨t, ht⟩ := block_of_row ⟨(i 0).val / 8, by omega⟩
  have q0 : win0_1.index t (0 : Fin 3) = (i 0).val / 8 := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 2048 ≤ (i 1).val ∧ (i 1).val < win0_1.index t (1 : Fin 3) * 2048 + 2048; omega
  | ⟨2, _⟩ => show win0_1.index t (2 : Fin 3) * 255 ≤ (i 2).val ∧ (i 2).val < win0_1.index t (2 : Fin 3) * 255 + 255; omega

/-- The result array after the run. -/
theorem final (c : Dev nD) : (dats m 0 c).arrAt 1 cfg0.N = result (m ((c : Thread nD τ).loc main_arg0)) :=
  (dats m 0 c).arrAt_eq_of_cover 1 (result (V m c main_arg0)) (fun t _ => flushed_eq m c t) covered

/-- The kernel's run: the result array is `result` of the argument, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.RefRun.lean ====
/-
  The reference's run, read back stage by stage.

  @main is a straight line of 91 host operations.  They fall into four stretches: the position of every entry (the
  clamped symmetric logarithm, shifted and scaled); the two bins and the two weights (floor, conversion, clipping, the
  differences); the first accumulation (row numbers and lower bins as an index table, the lower weights added into a
  zero matrix); the second accumulation (upper bins, upper weights) and the final reshape.  Each stretch is read back
  for ANY contents of the buffers before it, as its results in terms of the buffers it reads, so that the stretches
  compose by rewriting and no stage's term is ever copied into another's.
-/
import proofs.«158388_g52020643889842_cont_9to1c4b_370_9_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The position of every entry: operations 1–21. -/
abbrev ops1 : List (HloOp τ sig (Elt F)) :=
  [ unary main_arg0 main_v0 (Host.sign : (⟨S128x2048, .f32⟩ : BufTy).Contents (Elt F) → (⟨S128x2048, .f32⟩ : BufTy).Contents (Elt F)),
    unary main_arg0 main_v1 (Host.absf : (⟨S128x2048, .f32⟩ : BufTy).Contents (Elt F) → (⟨S128x2048, .f32⟩ : BufTy).Contents (Elt F)),
    unary main_v1 main_v2 (Host.log1p : (⟨S128x2048, .f32⟩ : BufTy).Contents (Elt F) → (⟨S128x2048, .f32⟩ : BufTy).Contents (Elt F)),
    binary main_v0 main_v2 main_v3 (mulf : (⟨S128x2048, .f32⟩ : BufTy).Contents (Elt F) → (⟨S128x2048, .f32⟩ : BufTy).Contents (Elt F) → (⟨S128x2048, .f32⟩ : BufTy).Contents (Elt F)),
    nullary main_cst (constant S_ .f32 0xC1A00000#32),
    nullary main_cst_0 (constant S_ .f32 0x41A00000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S128x2048, .f32⟩) main_call0_v1) (broadcastInDim S128x2048 ![] bcast_S_S128x2048),
    TRef.binary (TRef.of (T := ⟨S128x2048, .f32⟩) main_call0_v1) (TRef.of (T := ⟨S128x2048, .f32⟩) main_v3) (TRef.of (T := ⟨S128x2048, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S128x2048, .f32⟩) main_call0_v4) (broadcastInDim S128x2048 ![] bcast_S_S128x2048),
    TRef.binary (TRef.of (T := ⟨S128x2048, .f32⟩) main_call0_v4) (TRef.of (T := ⟨S128x2048, .f32⟩) main_call0_v2) (TRef.of (T := ⟨S128x2048, .f32⟩) main_v4) minimumf,
    nullary main_cst_1 (constant S_ .f32 0xC1A00000#32),
    unary main_cst_1 main_v5 (broadcastInDim S128x2048 ![] bcast_S_S128x2048 : (⟨S_, .f32⟩ : BufTy).Contents (Elt F) → (⟨S128x2048, .f32⟩ : BufTy).Contents (Elt F)),
    binary main_v4 main_v5 main_v6 (subf : (⟨S128x2048, .f32⟩ : BufTy).Contents (Elt F) → (⟨S128x2048, .f32⟩ : BufTy).Contents (Elt F) → (⟨S128x2048, .f32⟩ : BufTy).Contents (Elt F)),
    nullary main_cst_2 (constant S_ .f32 0x42200000#32),
    unary main_cst_2 main_v7 (broadcastInDim S128x2048 ![] bcast_S_S128x2048 : (⟨S_, .f32⟩ : BufTy).Contents (Elt F) → (⟨S128x2048, .f32⟩ : BufTy).Contents (Elt F)),
    binary main_v6 main_v7 main_v8 (Host.divf : (⟨S128x2048, .f32⟩ : BufTy).Contents (Elt F) → (⟨S128x2048, .f32⟩ : BufTy).Contents (Elt F) → (⟨S128x2048, .f32⟩ : BufTy).Contents (Elt F)),
    nullary main_cst_3 (constant S_ .f32 0x437E0000#32),
    unary main_cst_3 main_v9 (broadcastInDim S128x2048 ![] bcast_S_S128x2048 : (⟨S_, .f32⟩ : BufTy).Contents (Elt F) → (⟨S128x2048, .f32⟩ : BufTy).Contents (Elt F)),
    binary main_v8 main_v9 main_v10 (mulf : (⟨S128x2048, .f32⟩ : BufTy).Contents (Elt F) → (⟨S128x2048, .f32⟩ : BufTy).Contents (Elt F) → (⟨S128x2048, .f32⟩ : BufTy).Contents (Elt F)) ]

/-- The bins and the weights: operations 22–47. -/
abbrev ops2 : List (HloOp τ sig (Elt F)) :=
  [ unary main_v10 main_v11 (Host.floor : (⟨S128x2048, .f32⟩ : BufTy).Contents (Elt F) → (⟨S128x2048, .f32⟩ : BufTy).Contents (Elt F)),
    unary main_v11 main_v12 (fptosi 32 : (⟨S128x2048, .f32⟩ : BufTy).Contents (Elt F) → (⟨S128x2048, .i32⟩ : BufTy).Contents (Elt F)),
    nullary main_c (constantI S_ 32 0#32),
    nullary main_c_4 (constantI S_ 32 254#32),
    TRef.unary (TRef.of (T := ⟨S_, .i32⟩) main_c) (TRef.of (T := ⟨S_, .i32⟩) main_call1_v0) id,
    TRef.unary (TRef.of (T := ⟨S_, .i32⟩) main_call1_v0) (TRef.of (T := ⟨S128x2048, .i32⟩) main_call1_v1) (broadcastInDim S128x2048 ![] bcast_S_S128x2048),
    TRef.binary (TRef.of (T := ⟨S128x2048, .i32⟩) main_call1_v1) (TRef.of (T := ⟨S128x2048, .i32⟩) main_v12) (TRef.of (T := ⟨S128x2048, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S128x2048, .i32⟩) main_call1_v4) (broadcastInDim S128x2048 ![] bcast_S_S128x2048),
    TRef.binary (TRef.of (T := ⟨S128x2048, .i32⟩) main_call1_v4) (TRef.of (T := ⟨S128x2048, .i32⟩) main_call1_v2) (TRef.of (T := ⟨S128x2048, .i32⟩) main_v13) minsi,
    nullary main_c_5 (constantI S_ 32 1#32),
    unary main_c_5 main_v14 (broadcastInDim S128x2048 ![] bcast_S_S128x2048 : (⟨S_, .i32⟩ : BufTy).Contents (Elt F) → (⟨S128x2048, .i32⟩ : BufTy).Contents (Elt F)),
    binary main_v13 main_v14 main_v15 (addi : (⟨S128x2048, .i32⟩ : BufTy).Contents (Elt F) → (⟨S128x2048, .i32⟩ : BufTy).Contents (Elt F) → (⟨S128x2048, .i32⟩ : BufTy).Contents (Elt F)),
    nullary main_c_6 (constantI S_ 32 0#32),
    nullary main_c_7 (constantI S_ 32 254#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S128x2048, .i32⟩) main_call2_v1) (broadcastInDim S128x2048 ![] bcast_S_S128x2048),
    TRef.binary (TRef.of (T := ⟨S128x2048, .i32⟩) main_call2_v1) (TRef.of (T := ⟨S128x2048, .i32⟩) main_v15) (TRef.of (T := ⟨S128x2048, .i32⟩) main_call2_v2) maxsi,
    TRef.unary (TRef.of (T := ⟨S_, .i32⟩) main_c_7) (TRef.of (T := ⟨S_, .i32⟩) main_call2_v3) id,
    TRef.unary (TRef.of (T := ⟨S_, .i32⟩) main_call2_v3) (TRef.of (T := ⟨S128x2048, .i32⟩) main_call2_v4) (broadcastInDim S128x2048 ![] bcast_S_S128x2048),
    TRef.binary (TRef.of (T := ⟨S128x2048, .i32⟩) main_call2_v4) (TRef.of (T := ⟨S128x2048, .i32⟩) main_call2_v2) (TRef.of (T := ⟨S128x2048, .i32⟩) main_v16) minsi,
    unary main_v13 main_v17 (sitofp .f32 : (⟨S128x2048, .i32⟩ : BufTy).Contents (Elt F) → (⟨S128x2048, .f32⟩ : BufTy).Contents (Elt F)),
    binary main_v10 main_v17 main_v18 (subf : (⟨S128x2048, .f32⟩ : BufTy).Contents (Elt F) → (⟨S128x2048, .f32⟩ : BufTy).Contents (Elt F) → (⟨S128x2048, .f32⟩ : BufTy).Contents (Elt F)),
    nullary main_cst_8 (constant S_ .f32 0x3F800000#32),
    unary main_cst_8 main_v19 (broadcastInDim S128x2048 ![] bcast_S_S128x2048 : (⟨S_, .f32⟩ : BufTy).Contents (Elt F) → (⟨S128x2048, .f32⟩ : BufTy).Contents (Elt F)),
    binary main_v19 main_v18 main_v20 (subf : (⟨S128x2048, .f32⟩ : BufTy).Contents (Elt F) → (⟨S128x2048, .f32⟩ : BufTy).Contents (Elt F) → (⟨S128x2048, .f32⟩ : BufTy).Contents (Elt F)) ]

/-- The first accumulation: operations 48–70. -/
abbrev ops3 : List (HloOp τ sig (Elt F)) :=
  [ nullary main_v21 (iotaInDim S262144 32 0),
    nullary main_cst_9 (constant S_ .f32 0x00000000#32),
    unary main_cst_9 main_v22 (broadcastInDim S262144x255 ![] bcast_S_S262144x255 : (⟨S_, .f32⟩ : BufTy).Contents (Elt F) → (⟨S262144x255, .f32⟩ : BufTy).Contents (Elt F)),
    reshape main_v13 main_v23 rfl shapeCasts_S128x2048_S262144,
    reshape main_v20 main_v24 rfl shapeCasts_S128x2048_S262144,
    nullary main_c_10 (constantI S_ 32 0#32),
    unary main_c_10 main_v25 (broadcastInDim S262144 ![] bcast_S_S262144 : (⟨S_, .i32⟩ : BufTy).Contents (Elt F) → (⟨S262144, .i32⟩ : BufTy).Contents (Elt F)),
    binary main_v21 main_v25 main_v26 (cmpi .slt : (⟨S262144, .i32⟩ : BufTy).Contents (Elt F) → (⟨S262144, .i32⟩ : BufTy).Contents (Elt F) → (⟨S262144, .i1⟩ : BufTy).Contents (Elt F)),
    nullary main_c_11 (constantI S_ 32 262144#32),
    unary main_c_11 main_v27 (broadcastInDim S262144 ![] bcast_S_S262144 : (⟨S_, .i32⟩ : BufTy).Contents (Elt F) → (⟨S262144, .i32⟩ : BufTy).Contents (Elt F)),
    binary main_v21 main_v27 main_v28 (addi : (⟨S262144, .i32⟩ : BufTy).Contents (Elt F) → (⟨S262144, .i32⟩ : BufTy).Contents (Elt F) → (⟨S262144, .i32⟩ : BufTy).Contents (Elt F)),
    ternary main_v26 main_v28 main_v21 main_v29 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_12 (constantI S_ 32 0#32),
    unary main_c_12 main_v30 (broadcastInDim S262144 ![] bcast_S_S262144 : (⟨S_, .i32⟩ : BufTy).Contents (Elt F) → (⟨S262144, .i32⟩ : BufTy).Contents (Elt F)),
    binary main_v23 main_v30 main_v31 (cmpi .slt : (⟨S262144, .i32⟩ : BufTy).Contents (Elt F) → (⟨S262144, .i32⟩ : BufTy).Contents (Elt F) → (⟨S262144, .i1⟩ : BufTy).Contents (Elt F)),
    nullary main_c_13 (constantI S_ 32 255#32),
    unary main_c_13 main_v32 (broadcastInDim S262144 ![] bcast_S_S262144 : (⟨S_, .i32⟩ : BufTy).Contents (Elt F) → (⟨S262144, .i32⟩ : BufTy).Contents (Elt F)),
    binary main_v23 main_v32 main_v33 (addi : (⟨S262144, .i32⟩ : BufTy).Contents (Elt F) → (⟨S262144, .i32⟩ : BufTy).Contents (Elt F) → (⟨S262144, .i32⟩ : BufTy).Contents (Elt F)),
    ternary main_v31 main_v33 main_v23 main_v34 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v29 main_v35 (broadcastInDim S262144x1 ![0] bcast_S262144_S262144x1_0 : (⟨S262144, .i32⟩ : BufTy).Contents (Elt F) → (⟨S262144x1, .i32⟩ : BufTy).Contents (Elt F)),
    unary main_v34 main_v36 (broadcastInDim S262144x1 ![0] bcast_S262144_S262144x1_0 : (⟨S262144, .i32⟩ : BufTy).Contents (Elt F) → (⟨S262144x1, .i32⟩ : BufTy).Contents (Elt F)),
    binary main_v35 main_v36 main_v37 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v22 main_v37 main_v24 main_v38 ((fun x i u => Host.scatterAdd scatter_S262144x255_S262144x2_S262144_n_01_01_1 x i u) : (⟨S262144x255, .f32⟩ : BufTy).Contents (Elt F) → (⟨S262144x2, .i32⟩ : BufTy).Contents (Elt F) → (⟨S262144, .f32⟩ : BufTy).Contents (Elt F) → (⟨S262144x255, .f32⟩ : BufTy).Contents (Elt F)) ]

/-- The second accumulation and the reshape: operations 71–91. -/
abbrev ops4 : List (HloOp τ sig (Elt F)) :=
  [ reshape main_v16 main_v39 rfl shapeCasts_S128x2048_S262144,
    reshape main_v18 main_v40 rfl shapeCasts_S128x2048_S262144,
    nullary main_c_14 (constantI S_ 32 0#32),
    unary main_c_14 main_v41 (broadcastInDim S262144 ![] bcast_S_S262144 : (⟨S_, .i32⟩ : BufTy).Contents (Elt F) → (⟨S262144, .i32⟩ : BufTy).Contents (Elt F)),
    binary main_v21 main_v41 main_v42 (cmpi .slt : (⟨S262144, .i32⟩ : BufTy).Contents (Elt F) → (⟨S262144, .i32⟩ : BufTy).Contents (Elt F) → (⟨S262144, .i1⟩ : BufTy).Contents (Elt F)),
    nullary main_c_15 (constantI S_ 32 262144#32),
    unary main_c_15 main_v43 (broadcastInDim S262144 ![] bcast_S_S262144 : (⟨S_, .i32⟩ : BufTy).Contents (Elt F) → (⟨S262144, .i32⟩ : BufTy).Contents (Elt F)),
    binary main_v21 main_v43 main_v44 (addi : (⟨S262144, .i32⟩ : BufTy).Contents (Elt F) → (⟨S262144, .i32⟩ : BufTy).Contents (Elt F) → (⟨S262144, .i32⟩ : BufTy).Contents (Elt F)),
    ternary main_v42 main_v44 main_v21 main_v45 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_16 (constantI S_ 32 0#32),
    unary main_c_16 main_v46 (broadcastInDim S262144 ![] bcast_S_S262144 : (⟨S_, .i32⟩ : BufTy).Contents (Elt F) → (⟨S262144, .i32⟩ : BufTy).Contents (Elt F)),
    binary main_v39 main_v46 main_v47 (cmpi .slt : (⟨S262144, .i32⟩ : BufTy).Contents (Elt F) → (⟨S262144, .i32⟩ : BufTy).Contents (Elt F) → (⟨S262144, .i1⟩ : BufTy).Contents (Elt F)),
    nullary main_c_17 (constantI S_ 32 255#32),
    unary main_c_17 main_v48 (broadcastInDim S262144 ![] bcast_S_S262144 : (⟨S_, .i32⟩ : BufTy).Contents (Elt F) → (⟨S262144, .i32⟩ : BufTy).Contents (Elt F)),
    binary main_v39 main_v48 main_v49 (addi : (⟨S262144, .i32⟩ : BufTy).Contents (Elt F) → (⟨S262144, .i32⟩ : BufTy).Contents (Elt F) → (⟨S262144, .i32⟩ : BufTy).Contents (Elt F)),
    ternary main_v47 main_v49 main_v39 main_v50 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v45 main_v51 (broadcastInDim S262144x1 ![0] bcast_S262144_S262144x1_0 : (⟨S262144, .i32⟩ : BufTy).Contents (Elt F) → (⟨S262144x1, .i32⟩ : BufTy).Contents (Elt F)),
    unary main_v50 main_v52 (broadcastInDim S262144x1 ![0] bcast_S262144_S262144x1_0 : (⟨S262144, .i32⟩ : BufTy).Contents (Elt F) → (⟨S262144x1, .i32⟩ : BufTy).Contents (Elt F)),
    binary main_v51 main_v52 main_v53 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v38 main_v53 main_v40 main_v54 ((fun x i u => Host.scatterAdd scatter_S262144x255_S262144x2_S262144_n_01_01_1 x i u) : (⟨S262144x255, .f32⟩ : BufTy).Contents (Elt F) → (⟨S262144x2, .i32⟩ : BufTy).Contents (Elt F) → (⟨S262144, .f32⟩ : BufTy).Contents (Elt F) → (⟨S262144x255, .f32⟩ : BufTy).Contents (Elt F)),
    reshape main_v54 main_v55 rfl shapeCasts_S262144x255_S128x2048x255 ]

/-- @main's operations, in order. -/
abbrev ops : List (HloOp τ sig (Elt F)) :=
  [ unary main_arg0 main_v0 (Host.sign : (⟨S128x2048, .f32⟩ : BufTy).Contents (Elt F) → (⟨S128x2048, .f32⟩ : BufTy).Contents (Elt F)),
    unary main_arg0 main_v1 (Host.absf : (⟨S128x2048, .f32⟩ : BufTy).Contents (Elt F) → (⟨S128x2048, .f32⟩ : BufTy).Contents (Elt F)),
    unary main_v1 main_v2 (Host.log1p : (⟨S128x2048, .f32⟩ : BufTy).Contents (Elt F) → (⟨S128x2048, .f32⟩ : BufTy).Contents (Elt F)),
    binary main_v0 main_v2 main_v3 (mulf : (⟨S128x2048, .f32⟩ : BufTy).Contents (Elt F) → (⟨S128x2048, .f32⟩ : BufTy).Contents (Elt F) → (⟨S128x2048, .f32⟩ : BufTy).Contents (Elt F)),
    nullary main_cst (constant S_ .f32 0xC1A00000#32),
    nullary main_cst_0 (constant S_ .f32 0x41A00000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S128x2048, .f32⟩) main_call0_v1) (broadcastInDim S128x2048 ![] bcast_S_S128x2048),
    TRef.binary (TRef.of (T := ⟨S128x2048, .f32⟩) main_call0_v1) (TRef.of (T := ⟨S128x2048, .f32⟩) main_v3) (TRef.of (T := ⟨S128x2048, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S128x2048, .f32⟩) main_call0_v4) (broadcastInDim S128x2048 ![] bcast_S_S128x2048),
    TRef.binary (TRef.of (T := ⟨S128x2048, .f32⟩) main_call0_v4) (TRef.of (T := ⟨S128x2048, .f32⟩) main_call0_v2) (TRef.of (T := ⟨S128x2048, .f32⟩) main_v4) minimumf,
    nullary main_cst_1 (constant S_ .f32 0xC1A00000#32),
    unary main_cst_1 main_v5 (broadcastInDim S128x2048 ![] bcast_S_S128x2048 : (⟨S_, .f32⟩ : BufTy).Contents (Elt F) → (⟨S128x2048, .f32⟩ : BufTy).Contents (Elt F)),
    binary main_v4 main_v5 main_v6 (subf : (⟨S128x2048, .f32⟩ : BufTy).Contents (Elt F) → (⟨S128x2048, .f32⟩ : BufTy).Contents (Elt F) → (⟨S128x2048, .f32⟩ : BufTy).Contents (Elt F)),
    nullary main_cst_2 (constant S_ .f32 0x42200000#32),
    unary main_cst_2 main_v7 (broadcastInDim S128x2048 ![] bcast_S_S128x2048 : (⟨S_, .f32⟩ : BufTy).Contents (Elt F) → (⟨S128x2048, .f32⟩ : BufTy).Contents (Elt F)),
    binary main_v6 main_v7 main_v8 (Host.divf : (⟨S128x2048, .f32⟩ : BufTy).Contents (Elt F) → (⟨S128x2048, .f32⟩ : BufTy).Contents (Elt F) → (⟨S128x2048, .f32⟩ : BufTy).Contents (Elt F)),
    nullary main_cst_3 (constant S_ .f32 0x437E0000#32),
    unary main_cst_3 main_v9 (broadcastInDim S128x2048 ![] bcast_S_S128x2048 : (⟨S_, .f32⟩ : BufTy).Contents (Elt F) → (⟨S128x2048, .f32⟩ : BufTy).Contents (Elt F)),
    binary main_v8 main_v9 main_v10 (mulf : (⟨S128x2048, .f32⟩ : BufTy).Contents (Elt F) → (⟨S128x2048, .f32⟩ : BufTy).Contents (Elt F) → (⟨S128x2048, .f32⟩ : BufTy).Contents (Elt F)),
    unary main_v10 main_v11 (Host.floor : (⟨S128x2048, .f32⟩ : BufTy).Contents (Elt F) → (⟨S128x2048, .f32⟩ : BufTy).Contents (Elt F)),
    unary main_v11 main_v12 (fptosi 32 : (⟨S128x2048, .f32⟩ : BufTy).Contents (Elt F) → (⟨S128x2048, .i32⟩ : BufTy).Contents (Elt F)),
    nullary main_c (constantI S_ 32 0#32),
    nullary main_c_4 (constantI S_ 32 254#32),
    TRef.unary (TRef.of (T := ⟨S_, .i32⟩) main_c) (TRef.of (T := ⟨S_, .i32⟩) main_call1_v0) id,
    TRef.unary (TRef.of (T := ⟨S_, .i32⟩) main_call1_v0) (TRef.of (T := ⟨S128x2048, .i32⟩) main_call1_v1) (broadcastInDim S128x2048 ![] bcast_S_S128x2048),
    TRef.binary (TRef.of (T := ⟨S128x2048, .i32⟩) main_call1_v1) (TRef.of (T := ⟨S128x2048, .i32⟩) main_v12) (TRef.of (T := ⟨S128x2048, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S128x2048, .i32⟩) main_call1_v4) (broadcastInDim S128x2048 ![] bcast_S_S128x2048),
    TRef.binary (TRef.of (T := ⟨S128x2048, .i32⟩) main_call1_v4) (TRef.of (T := ⟨S128x2048, .i32⟩) main_call1_v2) (TRef.of (T := ⟨S128x2048, .i32⟩) main_v13) minsi,
    nullary main_c_5 (constantI S_ 32 1#32),
    unary main_c_5 main_v14 (broadcastInDim S128x2048 ![] bcast_S_S128x2048 : (⟨S_, .i32⟩ : BufTy).Contents (Elt F) → (⟨S128x2048, .i32⟩ : BufTy).Contents (Elt F)),
    binary main_v13 main_v14 main_v15 (addi : (⟨S128x2048, .i32⟩ : BufTy).Contents (Elt F) → (⟨S128x2048, .i32⟩ : BufTy).Contents (Elt F) → (⟨S128x2048, .i32⟩ : BufTy).Contents (Elt F)),
    nullary main_c_6 (constantI S_ 32 0#32),
    nullary main_c_7 (constantI S_ 32 254#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S128x2048, .i32⟩) main_call2_v1) (broadcastInDim S128x2048 ![] bcast_S_S128x2048),
    TRef.binary (TRef.of (T := ⟨S128x2048, .i32⟩) main_call2_v1) (TRef.of (T := ⟨S128x2048, .i32⟩) main_v15) (TRef.of (T := ⟨S128x2048, .i32⟩) main_call2_v2) maxsi,
    TRef.unary (TRef.of (T := ⟨S_, .i32⟩) main_c_7) (TRef.of (T := ⟨S_, .i32⟩) main_call2_v3) id,
    TRef.unary (TRef.of (T := ⟨S_, .i32⟩) main_call2_v3) (TRef.of (T := ⟨S128x2048, .i32⟩) main_call2_v4) (broadcastInDim S128x2048 ![] bcast_S_S128x2048),
    TRef.binary (TRef.of (T := ⟨S128x2048, .i32⟩) main_call2_v4) (TRef.of (T := ⟨S128x2048, .i32⟩) main_call2_v2) (TRef.of (T := ⟨S128x2048, .i32⟩) main_v16) minsi,
    unary main_v13 main_v17 (sitofp .f32 : (⟨S128x2048, .i32⟩ : BufTy).Contents (Elt F) → (⟨S128x2048, .f32⟩ : BufTy).Contents (Elt F)),
    binary main_v10 main_v17 main_v18 (subf : (⟨S128x2048, .f32⟩ : BufTy).Contents (Elt F) → (⟨S128x2048, .f32⟩ : BufTy).Contents (Elt F) → (⟨S128x2048, .f32⟩ : BufTy).Contents (Elt F)),
    nullary main_cst_8 (constant S_ .f32 0x3F800000#32),
    unary main_cst_8 main_v19 (broadcastInDim S128x2048 ![] bcast_S_S128x2048 : (⟨S_, .f32⟩ : BufTy).Contents (Elt F) → (⟨S128x2048, .f32⟩ : BufTy).Contents (Elt F)),
    binary main_v19 main_v18 main_v20 (subf : (⟨S128x2048, .f32⟩ : BufTy).Contents (Elt F) → (⟨S128x2048, .f32⟩ : BufTy).Contents (Elt F) → (⟨S128x2048, .f32⟩ : BufTy).Contents (Elt F)),
    nullary main_v21 (iotaInDim S262144 32 0),
    nullary main_cst_9 (constant S_ .f32 0x00000000#32),
    unary main_cst_9 main_v22 (broadcastInDim S262144x255 ![] bcast_S_S262144x255 : (⟨S_, .f32⟩ : BufTy).Contents (Elt F) → (⟨S262144x255, .f32⟩ : BufTy).Contents (Elt F)),
    reshape main_v13 main_v23 rfl shapeCasts_S128x2048_S262144,
    reshape main_v20 main_v24 rfl shapeCasts_S128x2048_S262144,
    nullary main_c_10 (constantI S_ 32 0#32),
    unary main_c_10 main_v25 (broadcastInDim S262144 ![] bcast_S_S262144 : (⟨S_, .i32⟩ : BufTy).Contents (Elt F) → (⟨S262144, .i32⟩ : BufTy).Contents (Elt F)),
    binary main_v21 main_v25 main_v26 (cmpi .slt : (⟨S262144, .i32⟩ : BufTy).Contents (Elt F) → (⟨S262144, .i32⟩ : BufTy).Contents (Elt F) → (⟨S262144, .i1⟩ : BufTy).Contents (Elt F)),
    nullary main_c_11 (constantI S_ 32 262144#32),
    unary main_c_11 main_v27 (broadcastInDim S262144 ![] bcast_S_S262144 : (⟨S_, .i32⟩ : BufTy).Contents (Elt F) → (⟨S262144, .i32⟩ : BufTy).Contents (Elt F)),
    binary main_v21 main_v27 main_v28 (addi : (⟨S262144, .i32⟩ : BufTy).Contents (Elt F) → (⟨S262144, .i32⟩ : BufTy).Contents (Elt F) → (⟨S262144, .i32⟩ : BufTy).Contents (Elt F)),
    ternary main_v26 main_v28 main_v21 main_v29 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_12 (constantI S_ 32 0#32),
    unary main_c_12 main_v30 (broadcastInDim S262144 ![] bcast_S_S262144 : (⟨S_, .i32⟩ : BufTy).Contents (Elt F) → (⟨S262144, .i32⟩ : BufTy).Contents (Elt F)),
    binary main_v23 main_v30 main_v31 (cmpi .slt : (⟨S262144, .i32⟩ : BufTy).Contents (Elt F) → (⟨S262144, .i32⟩ : BufTy).Contents (Elt F) → (⟨S262144, .i1⟩ : BufTy).Contents (Elt F)),
    nullary main_c_13 (constantI S_ 32 255#32),
    unary main_c_13 main_v32 (broadcastInDim S262144 ![] bcast_S_S262144 : (⟨S_, .i32⟩ : BufTy).Contents (Elt F) → (⟨S262144, .i32⟩ : BufTy).Contents (Elt F)),
    binary main_v23 main_v32 main_v33 (addi : (⟨S262144, .i32⟩ : BufTy).Contents (Elt F) → (⟨S262144, .i32⟩ : BufTy).Contents (Elt F) → (⟨S262144, .i32⟩ : BufTy).Contents (Elt F)),
    ternary main_v31 main_v33 main_v23 main_v34 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v29 main_v35 (broadcastInDim S262144x1 ![0] bcast_S262144_S262144x1_0 : (⟨S262144, .i32⟩ : BufTy).Contents (Elt F) → (⟨S262144x1, .i32⟩ : BufTy).Contents (Elt F)),
    unary main_v34 main_v36 (broadcastInDim S262144x1 ![0] bcast_S262144_S262144x1_0 : (⟨S262144, .i32⟩ : BufTy).Contents (Elt F) → (⟨S262144x1, .i32⟩ : BufTy).Contents (Elt F)),
    binary main_v35 main_v36 main_v37 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v22 main_v37 main_v24 main_v38 ((fun x i u => Host.scatterAdd scatter_S262144x255_S262144x2_S262144_n_01_01_1 x i u) : (⟨S262144x255, .f32⟩ : BufTy).Contents (Elt F) → (⟨S262144x2, .i32⟩ : BufTy).Contents (Elt F) → (⟨S262144, .f32⟩ : BufTy).Contents (Elt F) → (⟨S262144x255, .f32⟩ : BufTy).Contents (Elt F)),
    reshape main_v16 main_v39 rfl shapeCasts_S128x2048_S262144,
    reshape main_v18 main_v40 rfl shapeCasts_S128x2048_S262144,
    nullary main_c_14 (constantI S_ 32 0#32),
    unary main_c_14 main_v41 (broadcastInDim S262144 ![] bcast_S_S262144 : (⟨S_, .i32⟩ : BufTy).Contents (Elt F) → (⟨S262144, .i32⟩ : BufTy).Contents (Elt F)),
    binary main_v21 main_v41 main_v42 (cmpi .slt : (⟨S262144, .i32⟩ : BufTy).Contents (Elt F) → (⟨S262144, .i32⟩ : BufTy).Contents (Elt F) → (⟨S262144, .i1⟩ : BufTy).Contents (Elt F)),
    nullary main_c_15 (constantI S_ 32 262144#32),
    unary main_c_15 main_v43 (broadcastInDim S262144 ![] bcast_S_S262144 : (⟨S_, .i32⟩ : BufTy).Contents (Elt F) → (⟨S262144, .i32⟩ : BufTy).Contents (Elt F)),
    binary main_v21 main_v43 main_v44 (addi : (⟨S262144, .i32⟩ : BufTy).Contents (Elt F) → (⟨S262144, .i32⟩ : BufTy).Contents (Elt F) → (⟨S262144, .i32⟩ : BufTy).Contents (Elt F)),
    ternary main_v42 main_v44 main_v21 main_v45 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_16 (constantI S_ 32 0#32),
    unary main_c_16 main_v46 (broadcastInDim S262144 ![] bcast_S_S262144 : (⟨S_, .i32⟩ : BufTy).Contents (Elt F) → (⟨S262144, .i32⟩ : BufTy).Contents (Elt F)),
    binary main_v39 main_v46 main_v47 (cmpi .slt : (⟨S262144, .i32⟩ : BufTy).Contents (Elt F) → (⟨S262144, .i32⟩ : BufTy).Contents (Elt F) → (⟨S262144, .i1⟩ : BufTy).Contents (Elt F)),
    nullary main_c_17 (constantI S_ 32 255#32),
    unary main_c_17 main_v48 (broadcastInDim S262144 ![] bcast_S_S262144 : (⟨S_, .i32⟩ : BufTy).Contents (Elt F) → (⟨S262144, .i32⟩ : BufTy).Contents (Elt F)),
    binary main_v39 main_v48 main_v49 (addi : (⟨S262144, .i32⟩ : BufTy).Contents (Elt F) → (⟨S262144, .i32⟩ : BufTy).Contents (Elt F) → (⟨S262144, .i32⟩ : BufTy).Contents (Elt F)),
    ternary main_v47 main_v49 main_v39 main_v50 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v45 main_v51 (broadcastInDim S262144x1 ![0] bcast_S262144_S262144x1_0 : (⟨S262144, .i32⟩ : BufTy).Contents (Elt F) → (⟨S262144x1, .i32⟩ : BufTy).Contents (Elt F)),
    unary main_v50 main_v52 (broadcastInDim S262144x1 ![0] bcast_S262144_S262144x1_0 : (⟨S262144, .i32⟩ : BufTy).Contents (Elt F) → (⟨S262144x1, .i32⟩ : BufTy).Contents (Elt F)),
    binary main_v51 main_v52 main_v53 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v38 main_v53 main_v40 main_v54 ((fun x i u => Host.scatterAdd scatter_S262144x255_S262144x2_S262144_n_01_01_1 x i u) : (⟨S262144x255, .f32⟩ : BufTy).Contents (Elt F) → (⟨S262144x2, .i32⟩ : BufTy).Contents (Elt F) → (⟨S262144, .f32⟩ : BufTy).Contents (Elt F) → (⟨S262144x255, .f32⟩ : BufTy).Contents (Elt F)),
    reshape main_v54 main_v55 rfl shapeCasts_S262144x255_S128x2048x255 ]

theorem ops_split : (ops : List (HloOp τ sig (Elt F))) = ops1 ++ (ops2 ++ (ops3 ++ ops4)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., nullary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., reshape_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., reshape_bufs_sub ..⟩

/-- Two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The stages -/

/-- The position of every entry. -/
def posStage (x : FVec F S128x2048 .f32) : FVec F S128x2048 .f32 :=
  mulf (Host.divf (subf (minimumf (broadcastInDim S128x2048 ![] bcast_S_S128x2048 (constant S_ .f32 0x41A00000#32))
      (maximumf (broadcastInDim S128x2048 ![] bcast_S_S128x2048 (constant S_ .f32 0xC1A00000#32)) (mulf (Host.sign x) (Host.log1p (Host.absf x)))))
      (broadcastInDim S128x2048 ![] bcast_S_S128x2048 (constant S_ .f32 0xC1A00000#32)))
    (broadcastInDim S128x2048 ![] bcast_S_S128x2048 (constant S_ .f32 0x42200000#32)))
    (broadcastInDim S128x2048 ![] bcast_S_S128x2048 (constant S_ .f32 0x437E0000#32))

/-- Clip a word array to `[0, 254]`. -/
def clipV (v : IVec S128x2048 32) : IVec S128x2048 32 :=
  minsi (broadcastInDim S128x2048 ![] bcast_S_S128x2048 (constantI S_ 32 254#32))
    (maxsi (broadcastInDim S128x2048 ![] bcast_S_S128x2048 (constantI S_ 32 0#32)) v)

/-- The lower bin of every entry. -/
def lowStage (p : FVec F S128x2048 .f32) : IVec S128x2048 32 := clipV (fptosi 32 (Host.floor p))

/-- The upper bin. -/
def upStage (l : IVec S128x2048 32) : IVec S128x2048 32 :=
  clipV (addi l (broadcastInDim S128x2048 ![] bcast_S_S128x2048 (constantI S_ 32 1#32)))

/-- The upper bin's weight. -/
def upperWStage (p : FVec F S128x2048 .f32) (l : IVec S128x2048 32) : FVec F S128x2048 .f32 := subf p (sitofp .f32 l)

/-- The lower bin's weight. -/
def lowerWStage (uw : FVec F S128x2048 .f32) : FVec F S128x2048 .f32 :=
  subf (broadcastInDim S128x2048 ![] bcast_S_S128x2048 (constant S_ .f32 0x3F800000#32)) uw

/-- The `[128, 2048]` array as `262144` rows. -/
def flat {α : Type} (v : S128x2048.Idx → α) : S262144.Idx → α := shapeCast S262144 v shapeCasts_S128x2048_S262144

/-- A negative index counted from the end of an axis of extent `k`. -/
def wrapV (k : BitVec 32) (v : IVec S262144 32) : IVec S262144 32 :=
  select (cmpi .slt v (broadcastInDim S262144 ![] bcast_S_S262144 (constantI S_ 32 0#32)))
    (addi v (broadcastInDim S262144 ![] bcast_S_S262144 (constantI S_ 32 k))) v

/-- Two index columns side by side. -/
def tableV (a b : IVec S262144 32) : IVec S262144x2 32 :=
  concatenate S262144x2 1 [⟨S262144x1, broadcastInDim S262144x1 ![0] bcast_S262144_S262144x1_0 a⟩,
    ⟨S262144x1, broadcastInDim S262144x1 ![0] bcast_S262144_S262144x1_0 b⟩] concatenates_S262144x1_S262144x1_S262144x2_d1

/-- The row numbers. -/
def rowsV : IVec S262144 32 := iotaInDim S262144 32 0

/-- One accumulation: the weights `wt` added into `acc` at (row, bin). -/
def accStage (acc : FVec F S262144x255 .f32) (rows : IVec S262144 32) (bins : IVec S128x2048 32) (wt : FVec F S128x2048 .f32) :
    FVec F S262144x255 .f32 :=
  Host.scatterAdd scatter_S262144x255_S262144x2_S262144_n_01_01_1 acc (tableV (wrapV 262144#32 rows) (wrapV 255#32 (flat bins))) (flat wt)

/-- The zero matrix. -/
def zerosV : FVec F S262144x255 .f32 := broadcastInDim S262144x255 ![] bcast_S_S262144x255 (constant S_ .f32 0x00000000#32)

/-- The reference's result as a function of its argument. -/
def refResult (x : FVec F S128x2048 .f32) : FVec F S128x2048x255 .f32 :=
  shapeCast S128x2048x255
    (accStage (accStage zerosV rowsV (lowStage (posStage x)) (lowerWStage (upperWStage (posStage x) (lowStage (posStage x)))))
      rowsV (upStage (lowStage (posStage x))) (upperWStage (posStage x) (lowStage (posStage x))))
    shapeCasts_S262144x255_S128x2048x255

/-! ## Each stretch, from any contents -/

variable (W : Valuation τ sig (Elt F))

set_option maxHeartbeats 4000000 in
theorem stretch1 : after ops1 W (Proc.devRef .tc main_v10) = posStage (W (Proc.devRef .tc main_arg0)) := by
  after_results_simp <;> rfl

set_option maxHeartbeats 4000000 in
theorem stretch2_low : after ops2 W (Proc.devRef .tc main_v13) = lowStage (W (Proc.devRef .tc main_v10)) := by
  after_results_simp <;> rfl

set_option maxHeartbeats 4000000 in
theorem stretch2_up : after ops2 W (Proc.devRef .tc main_v16) = upStage (lowStage (W (Proc.devRef .tc main_v10))) := by
  after_results_simp <;> rfl

set_option maxHeartbeats 4000000 in
theorem stretch2_upperW : after ops2 W (Proc.devRef .tc main_v18)
    = upperWStage (W (Proc.devRef .tc main_v10)) (lowStage (W (Proc.devRef .tc main_v10))) := by
  after_results_simp <;> rfl

set_option maxHeartbeats 4000000 in
theorem stretch2_lowerW : after ops2 W (Proc.devRef .tc main_v20)
    = lowerWStage (upperWStage (W (Proc.devRef .tc main_v10)) (lowStage (W (Proc.devRef .tc main_v10)))) := by
  after_results_simp <;> rfl

set_option maxHeartbeats 4000000 in
theorem stretch3_acc : after ops3 W (Proc.devRef .tc main_v38)
    = accStage zerosV rowsV (W (Proc.devRef .tc main_v13)) (W (Proc.devRef .tc main_v20)) := by
  after_results_simp <;> rfl

set_option maxHeartbeats 4000000 in
theorem stretch3_rows : after ops3 W (Proc.devRef .tc main_v21) = rowsV := by
  after_results_simp <;> rfl

set_option maxHeartbeats 4000000 in
theorem stretch3_up : after ops3 W (Proc.devRef .tc main_v16) = W (Proc.devRef .tc main_v16) := by
  after_results_simp

set_option maxHeartbeats 4000000 in
theorem stretch3_upperW : after ops3 W (Proc.devRef .tc main_v18) = W (Proc.devRef .tc main_v18) := by
  after_results_simp

set_option maxHeartbeats 4000000 in
theorem stretch4 : after ops4 W (Proc.devRef .tc main_v55)
    = shapeCast S128x2048x255 (accStage (W (Proc.devRef .tc main_v38)) (W (Proc.devRef .tc main_v21)) (W (Proc.devRef .tc main_v16))
        (W (Proc.devRef .tc main_v18))) shapeCasts_S262144x255_S128x2048x255 := by
  after_results_simp <;> rfl

set_option maxHeartbeats 4000000 in
/-- No operation writes the argument. -/
theorem kept_arg : after ops W (Proc.devRef .tc main_arg0) = W (Proc.devRef .tc main_arg0) := by
  after_results_simp

/-- The result buffer after all four stretches. -/
theorem result_eq : after ops W (Proc.devRef .tc main_v55) = refResult (W (Proc.devRef .tc main_arg0)) := by
  rw [ops_split, after_append, after_append, after_append, stretch4, stretch3_acc, stretch3_rows, stretch3_up, stretch3_upperW,
    stretch2_low, stretch2_up, stretch2_upperW, stretch2_lowerW, stretch1]
  rfl

/-! ## The run -/

/-- Every weakly fair execution of @main terminates with the result at `refResult` of the argument, the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = refResult (m ((c.tc : Thread nD τ).loc main_arg0))
      ∧ r.2.mem ((c.tc : Thread nD τ).loc main_arg0) = m ((c.tc : Thread nD τ).loc main_arg0) :=
  (θ_run defs _ _).mono (fun _ h c => ⟨(h c main_v55).trans (result_eq _), (h c main_arg0).trans (kept_arg _)⟩)
    (run_seq scopedRefs_eq scopedSems_eq defs main (fun _ => ops) main_eq (fun _ => ops_sub) m ρ)

end Cert.ReferenceIdeal.HandRun

end
-- ==== Proof.LibScatterSet.lean ====
/-
  A scatter whose body returns the update ("set"), read at one index.

  The scatter is a left fold over the update indices: each update whose target lies inside the operand replaces
  the element there, the others are dropped.  Suppose every update that lands on the index `i` carries one and the
  same value `v` (all updates equal, or an update that depends only on coordinates it shares with its target).
  Then the order of the fold does not matter: the result at `i` is `v` if some update lands on `i`, and the
  operand's element otherwise.
-/
import Idealize.ShloMosaic.PureOps

namespace Idealize.ShloMosaic.ScatterSet

open Idealize.ShloMosaic

/-- A left fold of steps, watched at one position `b`: each step either overwrites position `b` with the fixed
    value `v` (when the step "hits") or leaves it alone.  After the fold, position `b` holds `v` if some step of
    the list hit, and its initial value otherwise. -/
theorem foldl_overwrite {ι β γ : Type} (stp : (β → γ) → ι → (β → γ)) (b : β) (hit : ι → Prop) (v : γ)
    (hhit : ∀ r n, hit n → stp r n b = v) (hmiss : ∀ r n, ¬ hit n → stp r n b = r b)
    (L : List ι) (x : β → γ) :
    ((∃ n ∈ L, hit n) → L.foldl stp x b = v) ∧ ((∀ n ∈ L, ¬ hit n) → L.foldl stp x b = x b) := by
  induction L generalizing x with
  | nil => exact ⟨fun ⟨_, h, _⟩ => absurd h (List.not_mem_nil), fun _ => rfl⟩
  | cons n L ih =>
    rw [List.foldl_cons]
    refine ⟨?_, ?_⟩
    · rintro ⟨n', hn', hh⟩
      by_cases hL : ∃ n'' ∈ L, hit n''
      · exact (ih (stp x n)).1 hL
      · have hnone : ∀ n'' ∈ L, ¬ hit n'' := fun n'' h1 h2 => hL ⟨n'', h1, h2⟩
        rw [(ih (stp x n)).2 hnone]
        rcases List.mem_cons.1 hn' with rfl | hn'
        · exact hhit x n' hh
        · exact absurd hh (hnone n' hn')
    · intro hall
      rw [(ih (stp x n)).2 fun n' h => hall n' (List.mem_cons_of_mem _ h)]
      exact hmiss x n (hall n (List.mem_cons_self))

variable {α : Type} {s si u : Shape} {w : Nat}

/-- The scatter's fold, watched at the index `i`: the step for update `n` hits when that update lands on `i`. -/
theorem scatter_set_fold (d : ScatterDims s si u) (x : s.Idx → α) (idx : IVec si w) (upd : u.Idx → α) (i : s.Idx) (v : α)
    (hv : ∀ j, d.resultIdx? j idx = some i → upd j = v) :
    ((∃ j, d.resultIdx? j idx = some i) → Host.scatter d (fun _ b => b) x idx upd i = v)
    ∧ ((∀ j, d.resultIdx? j idx ≠ some i) → Host.scatter d (fun _ b => b) x idx upd i = x i) := by
  unfold Host.scatter
  have key := foldl_overwrite (fun (r : s.Idx → α) (n : Fin u.numel) =>
      match d.resultIdx? (u.rowMajor.symm n) idx with
      | some i₀ => fun i' => if i' = i₀ then (fun _ b => b) (r i₀) (upd (u.rowMajor.symm n)) else r i'
      | none => r) i (fun n => d.resultIdx? (u.rowMajor.symm n) idx = some i) v
    (by
      intro r n hb
      have hu := hv _ hb
      dsimp only
      generalize d.resultIdx? (u.rowMajor.symm n) idx = o at hb
      subst hb
      dsimp only
      rw [if_pos rfl]
      exact hu)
    (by
      intro r n hb
      dsimp only
      generalize d.resultIdx? (u.rowMajor.symm n) idx = o at hb
      cases o with
      | none => rfl
      | some i₀ =>
        dsimp only
        rw [if_neg (fun e : i = i₀ => hb (e ▸ rfl))])
    (List.finRange u.numel) x
  refine ⟨fun ⟨j, hj⟩ => key.1 ⟨u.rowMajor j, List.mem_finRange _, by rw [Equiv.symm_apply_apply]; exact hj⟩,
    fun h => key.2 fun n _ => h _⟩

/-- Some update lands on `i`, and every update landing there carries `v`: the scatter's result at `i` is `v`. -/
theorem scatter_set_of_hit (d : ScatterDims s si u) (x : s.Idx → α) (idx : IVec si w) (upd : u.Idx → α) (i : s.Idx) (v : α)
    (hv : ∀ j, d.resultIdx? j idx = some i → upd j = v) (h : ∃ j, d.resultIdx? j idx = some i) :
    Host.scatter d (fun _ b => b) x idx upd i = v :=
  (scatter_set_fold d x idx upd i v hv).1 h

/-- No update lands on `i`: the scatter's result at `i` is the operand's element. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i :=
  (scatter_set_fold d x idx upd i (x i) (fun j hj => absurd hj (h j))).2 h

/-- An update lands on `i` exactly when, on every axis of the operand, the start read off the indices plus the
    update's window coordinate is `i`'s coordinate (an equation between integers: a start may be negative or too
    large, and then no index of the operand satisfies it). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hb : ∀ a, 0 ≤ d.start j idx a + (d.window j a : Int) ∧ d.start j idx a + (d.window j a : Int) < s.size a
    · rw [dif_pos hb] at h
      have e := congrFun (Option.some.inj h) a
      have ea : (d.start j idx a + (d.window j a : Int)).toNat = (i a).val := congrArg Fin.val e
      have := (hb a).1
      omega
    · rw [dif_neg hb] at h
      exact absurd h (by simp)
  · intro h
    have hb : ∀ a, 0 ≤ d.start j idx a + (d.window j a : Int) ∧ d.start j idx a + (d.window j a : Int) < s.size a := fun a => by
      have := h a
      have := (i a).isLt
      omega
    rw [dif_pos hb]
    congr 1
    funext a
    apply Fin.ext
    show (d.start j idx a + (d.window j a : Int)).toNat = (i a).val
    have := h a
    omega

end Idealize.ShloMosaic.ScatterSet
-- ==== Proof.LibPairScatterAdd.lean ====
/-
  An accumulating scatter of one value per row into a matrix, read at one entry.

  The operation is `x.at[rows, cols].add(u)` for a matrix `x : [N, C]`, a table `[N, 2]` giving each of the `N`
  updates its (row, column) target, and the updates `u : [N]` — a scatter with no window axes, both operand axes
  inserted, the index vector along the table's second axis.  Over the extended reals its result at `i` is `x i` plus
  the sum of the updates that land on `i`.

  * `resultIdx?_pair_iff`: update `j` lands on `i` exactly when the table's row `j`, read as signed integers, is
    `(i 0, i 1)`.
  * `hostScatterAdd_rows`: when update `n` targets row `n` (the row column of the table is the iota), at most one
    update — number `i 0` — can land on `i`, and the sum is that update if its column entry is `i 1`, else `0`.
-/
import Idealize.ShloMosaic.PureOps
import Idealize.ShloMosaic.PureOps.Ideal
import Idealize.ShloMosaic.Lib.ValueIdx
import proofs.«158388_g52020643889842_cont_9to1c4b_370_9_alg».proof.Proof.LibScatterSet

noncomputable section

namespace Idealize.ShloMosaic.PairScatterAdd

open Idealize.ShloMosaic Idealize.ShloMosaic.ValueIdx Idealize.ShloMosaic.ScatterSet

/-- The dimension numbers of `x.at[rows, cols].add(u)`: operand `[N, C]`, indices `[N, 2]`, updates `[N]`. -/
abbrev pairDims (N C : Nat) (wf : ScatterDims.WF ⟨2, ![N, C]⟩ ⟨2, ![N, 2]⟩ ⟨1, ![N]⟩ [] [0, 1] [0, 1] 1) :
    ScatterDims ⟨2, ![N, C]⟩ ⟨2, ![N, 2]⟩ ⟨1, ![N]⟩ where
  updateWindowDims := []
  insertedWindowDims := [0, 1]
  scatterDimsToOperandDims := [0, 1]
  indexVectorDim := 1
  wf := wf

variable {N C w : Nat} (wf : ScatterDims.WF ⟨2, ![N, C]⟩ ⟨2, ![N, 2]⟩ ⟨1, ![N]⟩ [] [0, 1] [0, 1] 1)

/-- No operand axis is a window axis: the window coordinate is `0` everywhere. -/
theorem window_zero (j : (⟨1, ![N]⟩ : Shape).Idx) (a : Fin 2) : (pairDims N C wf).window j a = 0 := by
  unfold ScatterDims.window
  have hk : (pairDims N C wf).sKept = [] := rfl
  rw [dif_neg (fun h => by rw [hk] at h; exact absurd h List.not_mem_nil)]

/-- The start of update `j` on operand axis `a` is entry `(j, a)` of the table, read signed. -/
theorem start_eq (j : (⟨1, ![N]⟩ : Shape).Idx) (idx : IVec ⟨2, ![N, 2]⟩ w) (a : Fin 2) :
    (pairDims N C wf).start j idx a = (idx (ix2 (n0 := N) (n1 := 2) (j 0) a)).toInt := by
  unfold ScatterDims.start
  match a with
  | ⟨0, h0⟩ =>
    have hm : (⟨0, h0⟩ : Fin 2) ∈ (pairDims N C wf).scatterDimsToOperandDims := List.mem_cons_self
    rw [dif_pos hm]
    congr 2
    funext b
    match b with
    | ⟨0, _⟩ => rfl
    | ⟨1, _⟩ => rfl
  | ⟨1, h1⟩ =>
    have hm : (⟨1, h1⟩ : Fin 2) ∈ (pairDims N C wf).scatterDimsToOperandDims := List.mem_cons_of_mem _ List.mem_cons_self
    rw [dif_pos hm]
    congr 2
    funext b
    match b with
    | ⟨0, _⟩ => rfl
    | ⟨1, _⟩ => rfl

/-- Update `j` lands on `i` exactly when row `j` of the table is `(i 0, i 1)`. -/
theorem resultIdx?_pair_iff (j : (⟨1, ![N]⟩ : Shape).Idx) (idx : IVec ⟨2, ![N, 2]⟩ w) (i : (⟨2, ![N, C]⟩ : Shape).Idx) :
    (pairDims N C wf).resultIdx? j idx = some i ↔
      (idx (ix2 (n0 := N) (n1 := 2) (j 0) 0)).toInt = ((i 0).val : Int)
        ∧ (idx (ix2 (n0 := N) (n1 := 2) (j 0) 1)).toInt = ((i 1).val : Int) := by
  rw [resultIdx?_eq_some_iff]
  constructor
  · intro h
    have h0 := h 0
    have h1 := h 1
    rw [start_eq, window_zero] at h0 h1
    exact ⟨by simpa using h0, by simpa using h1⟩
  · rintro ⟨h0, h1⟩ a
    rw [start_eq, window_zero]
    match a with
    | ⟨0, _⟩ => simpa using h0
    | ⟨1, _⟩ => simpa using h1

/-- When update `n` targets row `n`, the accumulated entry `i` is `x i` plus update `i 0` if that update's column is
    `i 1`, plus nothing otherwise. -/
theorem hostScatterAdd_rows (x : (⟨2, ![N, C]⟩ : Shape).Idx → EReal) (idx : IVec ⟨2, ![N, 2]⟩ w)
    (upd : (⟨1, ![N]⟩ : Shape).Idx → EReal)
    (hrow : ∀ n : Fin N, (idx (ix2 (n0 := N) (n1 := 2) n 0)).toInt = (n.val : Int))
    (i : (⟨2, ![N, C]⟩ : Shape).Idx) :
    Ideal.hostScatterAdd (pairDims N C wf) x idx upd i
      = x i + (if (idx (ix2 (n0 := N) (n1 := 2) (i 0) 1)).toInt = ((i 1).val : Int) then upd (ix1 (n := N) (i 0)) else 0) := by
  unfold Ideal.hostScatterAdd
  congr 1
  rw [Finset.sum_filter, Finset.sum_eq_single (ix1 (n := N) (i 0))]
  · have e : ((pairDims N C wf).resultIdx? (ix1 (n := N) (i 0)) idx = some i)
        ↔ (idx (ix2 (n0 := N) (n1 := 2) (i 0) 1)).toInt = ((i 1).val : Int) := by
      rw [resultIdx?_pair_iff]
      exact ⟨fun h => h.2, fun h => ⟨hrow (i 0), h⟩⟩
    by_cases hc : (idx (ix2 (n0 := N) (n1 := 2) (i 0) 1)).toInt = ((i 1).val : Int)
    · rw [if_pos (e.2 hc), if_pos hc]
    · rw [if_neg (fun h => hc (e.1 h)), if_neg hc]
  · intro b _ hb
    rw [if_neg]
    intro hp
    have h0 := ((resultIdx?_pair_iff wf b idx i).1 hp).1
    rw [hrow (b 0)] at h0
    have hb0 : b 0 = i 0 := Fin.ext (by exact_mod_cast h0)
    exact hb ((eq_ix1 b).trans (congrArg (ix1 (n := N)) hb0))
  · intro h
    exact absurd (Finset.mem_univ _) h

end Idealize.ShloMosaic.PairScatterAdd

end
-- ==== Proof.RefValue.lean ====
/-
  What the reference leaves in its result array, over the extended reals, entry by entry.

  The reference flattens the `[128, 2048]` argument to `N = 262144` rows (row `n` is entry `(n / 2048, n % 2048)`),
  starts from the zero matrix `[N, 255]`, and accumulates twice: first `1 - (pos - lower)` at `(n, lower n)`, then
  `pos - lower` at `(n, upper n)`, where `lower` is the clipped floor of the position and `upper` the clipped next
  bin.  Each accumulation's index table is the row number beside the bin, so at most one update lands on an entry.
  Reshaped to `[128, 2048, 255]`, entry `(p, q, k)` is row `2048 p + q`, column `k`.
-/
import proofs.«158388_g52020643889842_cont_9to1c4b_370_9_alg».proof.Proof.RefRun
import proofs.«158388_g52020643889842_cont_9to1c4b_370_9_alg».proof.Proof.TwoHotScalar
import proofs.«158388_g52020643889842_cont_9to1c4b_370_9_alg».proof.Proof.LibPairScatterAdd
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.PairScatterAdd

namespace Cert.ReferenceIdeal.Hand

open Cert.ReferenceIdeal Cert.ReferenceIdeal.Gen Cert.ReferenceIdeal.HandRun TwoHot

/-! ## The entrywise stages -/

/-- The upper bin's weight: the position less the lower bin's number. -/
def upperWeight (x : EReal) : EReal := posHost x - (((lowW x).toInt : ℝ) : EReal)
/-- The lower bin's weight: one less the upper bin's. -/
def lowerWeight (x : EReal) : EReal := Ideal.ofBits .f32 0x3F800000#32 - upperWeight x

variable (x0 : FVec Ideal S128x2048 .f32)

theorem pos_at (y : S128x2048.Idx) : posStage (F := Ideal) x0 y = posHost (x0 y) := rfl
theorem low_at (y : S128x2048.Idx) : lowStage (F := Ideal) (posStage x0) y = lowW (x0 y) := rfl
theorem up_at (y : S128x2048.Idx) : upStage (lowStage (F := Ideal) (posStage x0)) y = upW (x0 y) := rfl
theorem upper_weight_at (y : S128x2048.Idx) :
    upperWStage (F := Ideal) (posStage x0) (lowStage (posStage x0)) y = upperWeight (x0 y) := rfl
theorem lower_weight_at (y : S128x2048.Idx) :
    lowerWStage (F := Ideal) (upperWStage (posStage x0) (lowStage (posStage x0))) y = lowerWeight (x0 y) := rfl

/-! ## Rows of the flattened argument -/

/-- Row `n` of the flattened argument is entry `(n / 2048, n % 2048)`. -/
def cell (n : Fin 262144) : S128x2048.Idx :=
  ix2 (n0 := 128) (n1 := 2048) ⟨n.val / 2048, by have := n.isLt; omega⟩ ⟨n.val % 2048, by have := n.isLt; omega⟩

theorem cell_mk (p : Fin 128) (q : Fin 2048) (h : p.val * 2048 + q.val < 262144) : cell ⟨p.val * 2048 + q.val, h⟩ = ix2 p q := by
  unfold cell
  congr 1
  · apply Fin.ext; show (p.val * 2048 + q.val) / 2048 = p.val; have := q.isLt; omega
  · apply Fin.ext; show (p.val * 2048 + q.val) % 2048 = q.val; have := q.isLt; omega

theorem flat_apply {α : Type} (v : S128x2048.Idx → α) (n : Fin 262144) : flat v (ix1 n) = v (cell n) := by
  unfold flat
  refine shapeCast_apply v shapeCasts_S128x2048_S262144 (ix1 n) (cell n) ?_
  rw [Shape.rowMajor_val_two, Shape.rowMajor_val_one]
  show n.val / 2048 * 2048 + n.val % 2048 = n.val
  omega

/-! ## An index table, read -/

theorem column_apply (v : IVec S262144 32) (n : Fin 262144) :
    broadcastInDim S262144x1 ![0] bcast_S262144_S262144x1_0 v (ix2 (n0 := 262144) (n1 := 1) n 0) = v (ix1 n) :=
  broadcastInDim_apply _ bcast_S262144_S262144x1_0 v (ix2 (n0 := 262144) (n1 := 1) n 0) (ix1 n) (fun a => match a with
    | ⟨0, _⟩ => by show n.val = if (262144 : Nat) = 1 then 0 else n.val; rw [if_neg (by decide)])

theorem table_row (a b : IVec S262144 32) (n : Fin 262144) : tableV a b (ix2 (n0 := 262144) (n1 := 2) n 0) = a (ix1 n) := by
  unfold tableV
  refine (concatenate_pair_apply_left (t := S262144x2) (s₁ := S262144x1) (s₂ := S262144x1) (1 : Fin 2) _ _ _ (ix2 (n0 := 262144) (n1 := 2) n 0) rfl
    (ix2 (n0 := 262144) (n1 := 1) n 0) (fun b => by match b with | ⟨0, _⟩ => rfl | ⟨1, _⟩ => rfl)).trans ?_
  exact column_apply a n

theorem table_col (a b : IVec S262144 32) (n : Fin 262144) : tableV a b (ix2 (n0 := 262144) (n1 := 2) n 1) = b (ix1 n) := by
  unfold tableV
  refine (concatenate_pair_apply_right (t := S262144x2) (s₁ := S262144x1) (s₂ := S262144x1) (1 : Fin 2) _ _ _ (ix2 (n0 := 262144) (n1 := 2) n 1) rfl rfl
    (ix2 (n0 := 262144) (n1 := 1) n 0) (fun b hb => by match b with | ⟨0, _⟩ => rfl | ⟨1, _⟩ => exact absurd rfl hb) rfl).trans ?_
  exact column_apply b n

theorem wrapV_apply (k : BitVec 32) (v : IVec S262144 32) (j : S262144.Idx) : wrapV k v j = wrap k (v j) := rfl

/-! ## One accumulation, read at an entry -/

/-- With the row numbers as the table's first column, entry `(n, k)` gains row `n`'s weight exactly when `k` is row
    `n`'s bin. -/
theorem accStage_apply (acc : FVec Ideal S262144x255 .f32) (bins : IVec S128x2048 32) (wt : FVec Ideal S128x2048 .f32)
    (n : Fin 262144) (k : Fin 255) :
    accStage acc rowsV bins wt (ix2 (n0 := 262144) (n1 := 255) n k)
      = acc (ix2 (n0 := 262144) (n1 := 255) n k) + (if (wrap 255#32 (bins (cell n))).toInt = (k.val : Int) then wt (cell n) else 0) := by
  unfold accStage
  refine (hostScatterAdd_rows (N := 262144) (C := 255) Facts₀.scatter_S262144x255_S262144x2_S262144_n_01_01_1_wf
    acc (tableV (wrapV 262144#32 rowsV) (wrapV 255#32 (flat bins))) (flat wt)
    (fun n' => by
      rw [table_row, wrapV_apply]
      show (wrap 262144#32 (BitVec.ofNat 32 n'.val)).toInt = _
      rw [wrap_row _ _ (by have := n'.isLt; omega)]
      exact toInt_row _ (by have := n'.isLt; omega))
    (ix2 (n0 := 262144) (n1 := 255) n k)).trans ?_
  show acc (ix2 (n0 := 262144) (n1 := 255) n k)
      + (if (tableV (wrapV 262144#32 rowsV) (wrapV 255#32 (flat bins)) (ix2 (n0 := 262144) (n1 := 2) n 1)).toInt = (k.val : Int)
          then flat wt (ix1 n) else 0) = _
  rw [table_col, wrapV_apply, flat_apply, flat_apply]

/-! ## The result -/

/-- The reference's result at `(p, q, k)`, in terms of the entry `x = x0 (p, q)`. -/
theorem result_at (p : Fin 128) (q : Fin 2048) (k : Fin 255) :
    refResult (F := Ideal) x0 (ix3 p q k)
      = Ideal.ofBits .f32 0x00000000#32
        + (if (wrap 255#32 (lowW (x0 (ix2 p q)))).toInt = (k.val : Int) then lowerWeight (x0 (ix2 p q)) else 0)
        + (if (wrap 255#32 (upW (x0 (ix2 p q)))).toInt = (k.val : Int) then upperWeight (x0 (ix2 p q)) else 0) := by
  have hn : p.val * 2048 + q.val < 262144 := by have := p.isLt; have := q.isLt; omega
  unfold refResult
  refine (shapeCast_apply _ shapeCasts_S262144x255_S128x2048x255 (ix3 p q k)
    (ix2 (n0 := 262144) (n1 := 255) ⟨p.val * 2048 + q.val, hn⟩ k) ?_).trans ?_
  · rw [Shape.rowMajor_val_two, Shape.rowMajor_val_three]
    show (p.val * 2048 + q.val) * 255 + k.val = (p.val * 2048 + q.val) * 255 + k.val
    rfl
  · rw [accStage_apply, accStage_apply, cell_mk, up_at, upper_weight_at, low_at, lower_weight_at]
    rfl

end Cert.ReferenceIdeal.Hand

end
-- ==== Proof.TwoHotReal.lean ====
/-
  The two-hot encoding of a position on a grid of bins, over the reals.

  A position `P` in `[0, 254]` is split between the bin below it, `L = ⌊P⌋`, and the next bin `min (L + 1) 254`:
  the lower bin receives `1 - (P - L)`, the upper bin `P - L`.  Bin by bin this is the "hat" function
  `max (1 - |P - i|) 0`: at `i = L` the distance is `P - L < 1`, at `i = L + 1` it is `L + 1 - P ≤ 1`, every other
  bin is at distance at least `1`, and at the right end (`P = 254`) both weights land on bin `254`, the upper one
  being `0`.
-/
import Mathlib

namespace TwoHot

/-- The lower bin's share plus the upper bin's share at bin `i` is the hat function at `i`. -/
theorem lower_add_upper (P : ℝ) (h0 : 0 ≤ P) (h1 : P ≤ 254) (i : ℤ) (hi1 : i ≤ 254) :
    (if ⌊P⌋ = i then 1 - (P - (⌊P⌋ : ℝ)) else 0) + (if min (⌊P⌋ + 1) 254 = i then P - (⌊P⌋ : ℝ) else 0)
      = max (1 - |P - (i : ℝ)|) 0 := by
  have hL : ((⌊P⌋ : ℤ) : ℝ) ≤ P := Int.floor_le P
  have hU : P < ((⌊P⌋ : ℤ) : ℝ) + 1 := Int.lt_floor_add_one P
  have hL254 : ⌊P⌋ ≤ 254 := by
    have : ((⌊P⌋ : ℤ) : ℝ) ≤ ((254 : ℤ) : ℝ) := by push_cast; linarith
    exact_mod_cast this
  by_cases e : ⌊P⌋ = i
  · -- the bin below the position
    subst e
    rw [if_pos rfl]
    have hB : (if min (⌊P⌋ + 1) 254 = ⌊P⌋ then P - (⌊P⌋ : ℝ) else 0) = 0 := by
      split_ifs with hm
      · have h254 : ⌊P⌋ = 254 := by
          rcases min_choice (⌊P⌋ + 1) 254 with h | h
          · rw [h] at hm; omega
          · rw [h] at hm; exact hm.symm
        have : ((⌊P⌋ : ℤ) : ℝ) = 254 := by rw [h254]; norm_num
        linarith
      · rfl
    rw [hB, add_zero, abs_of_nonneg (by linarith), max_eq_left (by linarith)]
  · rw [if_neg e, zero_add]
    by_cases e2 : min (⌊P⌋ + 1) 254 = i
    · -- the bin above the position
      rw [if_pos e2]
      have hi : i = ⌊P⌋ + 1 := by
        rcases min_choice (⌊P⌋ + 1) 254 with h | h
        · rw [h] at e2; exact e2.symm
        · have := min_le_left (⌊P⌋ + 1) 254
          rw [h] at e2 this
          omega
      have hir : (i : ℝ) = (⌊P⌋ : ℝ) + 1 := by rw [hi]; push_cast; ring
      rw [hir, abs_of_nonpos (by linarith), max_eq_left (by linarith)]
      ring
    · -- every other bin is at distance at least one
      rw [if_neg e2]
      have hfar : 1 ≤ |P - (i : ℝ)| := by
        rcases lt_or_gt_of_ne e with hlt | hgt
        · -- the floor is below i, and i is not the next bin
          have hi2 : ⌊P⌋ + 2 ≤ i := by
            rcases min_choice (⌊P⌋ + 1) 254 with h | h
            · rw [h] at e2; omega
            · have := min_le_left (⌊P⌋ + 1) 254
              rw [h] at e2 this
              omega
          have : ((⌊P⌋ : ℤ) : ℝ) + 2 ≤ (i : ℝ) := by exact_mod_cast hi2
          rw [abs_of_nonpos (by linarith)]
          linarith
        · have hi2 : i + 1 ≤ ⌊P⌋ := hgt
          have : (i : ℝ) + 1 ≤ ((⌊P⌋ : ℤ) : ℝ) := by exact_mod_cast hi2
          rw [abs_of_nonneg (by linarith)]
          linarith
      rw [max_eq_right (by linarith)]

end TwoHot
-- ==== Proof.Bridge.lean ====
/-
  The two results are one function of the argument, entry by entry, when the argument's entries are real.

  At a real entry `r` with position `P = pos r ∈ [0, 254]` and `L = ⌊P⌋`: the reference's lower bin is the word of
  `L`, its upper bin the word of `min (L + 1) 254`, its weights `1 - (P - L)` and `P - L`; the kernel's entry at bin
  `k` is `max (1 - |P - k|) 0`.  The two-hot identity over the reals joins them.
-/
import proofs.«158388_g52020643889842_cont_9to1c4b_370_9_alg».proof.Proof.KernelValue
import proofs.«158388_g52020643889842_cont_9to1c4b_370_9_alg».proof.Proof.RefValue
import proofs.«158388_g52020643889842_cont_9to1c4b_370_9_alg».proof.Proof.TwoHotReal

noncomputable section

open Idealize.ShloMosaic Idealize.ShloMosaic.ValueIdx

namespace Cert.Bridge

open TwoHot TwoHot.Words Cert.ReferenceIdeal.Hand

/-- A real weight counted when a condition holds, as an extended real. -/
theorem ite_coe (c : Prop) [Decidable c] (a : ℝ) : (if c then ((a : ℝ) : EReal) else 0) = (((if c then a else 0 : ℝ)) : EReal) := by
  split_ifs <;> simp

/-- At a real entry, the reference's accumulated entry at bin `k` is the kernel's hat at `k`. -/
theorem same_entry (r : ℝ) (k : Fin 255) :
    Ideal.ofBits .f32 0x00000000#32
        + (if (wrap 255#32 (lowW (r : EReal))).toInt = (k.val : Int) then lowerWeight (r : EReal) else 0)
        + (if (wrap 255#32 (upW (r : EReal))).toInt = (k.val : Int) then upperWeight (r : EReal) else 0)
      = hatKer (posKer (r : EReal)) (BitVec.ofNat 32 k.val) := by
  have hb := (binOf r).isLt
  have hup : upperWeight (r : EReal) = (((pos r - ((⌊pos r⌋ : ℤ) : ℝ)) : ℝ) : EReal) := by
    unfold upperWeight
    rw [posHost_coe, lowW_coe, toInt_small, binOf_val, ← EReal.coe_sub]
  have hlo : lowerWeight (r : EReal) = (((1 - (pos r - ((⌊pos r⌋ : ℤ) : ℝ))) : ℝ) : EReal) := by
    unfold lowerWeight
    rw [hup, w_one, ← EReal.coe_sub]
  have h1 : (wrap 255#32 (lowW (r : EReal))).toInt = ((⌊pos r⌋ : ℤ)) := by
    rw [lowW_coe, wrap_small, toInt_small, binOf_val]
  have h2 : (wrap 255#32 (upW (r : EReal))).toInt = min (⌊pos r⌋ + 1) 254 := by
    rw [upW_coe]
    have := wrap_small ⟨min ((binOf r).val + 1) 254, by omega⟩
    have e2 := toInt_small ⟨min ((binOf r).val + 1) 254, by omega⟩
    simp only at this e2
    rw [this, e2, ← binOf_val r]
    push_cast
    rfl
  rw [h1, h2, hlo, hup, posKer_coe, hatKer_coe, toInt_small, w_zero, ite_coe, ite_coe, ← EReal.coe_add, ← EReal.coe_add, zero_add]
  exact congrArg _ (lower_add_upper (pos r) (pos_nonneg r) (pos_le r) (k.val : ℤ) (by have := k.isLt; omega))

/-- The reference's result is the kernel's `result` of the same argument, when every entry is real. -/
theorem ref_eq_result (x0 : FVec Ideal Cert.ReferenceIdeal.S128x2048 .f32)
    (hreal : ∀ y, ∃ r : ℝ, x0 y = (r : EReal)) :
    Cert.ReferenceIdeal.HandRun.refResult (F := Ideal) x0 = Cert.KernelIdeal.Hand.result x0 := by
  funext i
  obtain ⟨p, q, k, rfl⟩ : ∃ (p : Fin 128) (q : Fin 2048) (k : Fin 255), i = ix3 p q k := ⟨i 0, i 1, i 2, eq_ix3 i⟩
  rw [result_at]
  obtain ⟨r, hr⟩ := hreal (ix2 p q)
  rw [hr]
  show _ = hatKer (posKer (x0 (ix2 p q))) (BitVec.ofNat 32 k.val)
  rw [hr]
  exact same_entry r k

end Cert.Bridge

end
-- ==== Proof.lean ====
/- The five claims of this certificate.

   The kernel writes, for every entry `x` of the `[128, 2048]` argument and every bin `k < 255`, the hat
   `max (1 - |pos x - k|) 0` of the position `pos x = (clamp (sign x · log (1 + |x|)) + 20) / 40 · 254`; the reference
   accumulates the two-hot weights `1 - (pos x - ⌊pos x⌋)` at bin `⌊pos x⌋` and `pos x - ⌊pos x⌋` at the next bin
   (clipped to 254) into a zero array.  For a real `x` the position lies in `[0, 254]` and the two agree bin by
   bin; the precondition makes every entry real.  The frames are the generated ones (the reference's is its
   run with the result dropped), and the one idealization step (the sign from the sign bit) is its rule's
   statement. -/
import proofs.«158388_g52020643889842_cont_9to1c4b_370_9_alg».proof.Defs
import proofs.«158388_g52020643889842_cont_9to1c4b_370_9_alg».proof.Proof.Gen.Kernel
import proofs.«158388_g52020643889842_cont_9to1c4b_370_9_alg».proof.Proof.Gen.Kernel.Skeleton
import proofs.«158388_g52020643889842_cont_9to1c4b_370_9_alg».proof.Proof.Gen.Kernel.Launch
import proofs.«158388_g52020643889842_cont_9to1c4b_370_9_alg».proof.Proof.Gen.Kernel.Points
import proofs.«158388_g52020643889842_cont_9to1c4b_370_9_alg».proof.Proof.Gen.Kernel.Frame
import proofs.«158388_g52020643889842_cont_9to1c4b_370_9_alg».proof.Proof.Gen.KernelIdeal
import proofs.«158388_g52020643889842_cont_9to1c4b_370_9_alg».proof.Proof.Gen.KernelIdeal.Skeleton
import proofs.«158388_g52020643889842_cont_9to1c4b_370_9_alg».proof.Proof.Gen.KernelIdeal.Launch
import proofs.«158388_g52020643889842_cont_9to1c4b_370_9_alg».proof.Proof.Gen.KernelIdeal.Points
import proofs.«158388_g52020643889842_cont_9to1c4b_370_9_alg».proof.Proof.Gen.KernelIdeal.Frame
import proofs.«158388_g52020643889842_cont_9to1c4b_370_9_alg».proof.Proof.Gen.ReferenceIdeal
import proofs.«158388_g52020643889842_cont_9to1c4b_370_9_alg».proof.Proof.Gen.Pre_finite_inputs
import proofs.«158388_g52020643889842_cont_9to1c4b_370_9_alg».proof.Proof.Gen.KernelIdeal.Value
import proofs.«158388_g52020643889842_cont_9to1c4b_370_9_alg».proof.Proof.FiniteInputs
import proofs.«158388_g52020643889842_cont_9to1c4b_370_9_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

/-- The one rewrite of the idealization: `1.0` carrying the sign bit of `x` is `-1` below zero and `1` otherwise. -/
theorem preserves : Cert.preserves_Kernel_KernelIdeal := IdealRules.sign_bit.statement Cert.KernelIdeal.S8x2048 .f32

/-- Both programs end with the hat of the positions: the kernel by its blocks, the reference by its two
    accumulations, equal entry by entry because the precondition makes every entry of the argument real. -/
theorem algebraic : Cert.algebraic_KernelIdeal_ReferenceIdeal := by
  intro m ρ m' ρ' hpre hagree
  refine ⟨fun c => Cert.KernelIdeal.Hand.result (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [hagree c]
  exact Cert.Bridge.ref_eq_result _ (Cert.Pre_finite_inputs.Hand.real_of_pre _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
